-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S40000x128 .f32) (main_arg1 : IVec S2x640000 32) (main_arg2 : FVec F S640000 .f32) (main_arg3 : FVec F S128x128 .f32) (main_arg4 : FVec F S128 .f32) (main_arg5 : FVec F S128x128 .f32) (main_arg6 : FVec F S128 .f32) (main_arg7 : FVec F S128 .f32) (main_arg8 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x640000 : Shape := ⟨2, ![1, 640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S1x128 : Shape := ⟨2, ![1, 128]⟩
abbrev S5000x128 : Shape := ⟨2, ![5000, 128]⟩
abbrev S640000x128 : Shape := ⟨2, ![640000, 128]⟩
abbrev S5000x1 : Shape := ⟨2, ![5000, 1]⟩
abbrev S5000 : Shape := ⟨1, ![5000]⟩

abbrev nBuf : Space → Nat
  | .hbm => 86
  | .vmem => 30
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .f32⟩
  | .hbm, ⟨14, _⟩ => ⟨S40000, .f32⟩
  | .hbm, ⟨15, _⟩ => ⟨S640000x1, .i32⟩
  | .hbm, ⟨16, _⟩ => ⟨S40000, .f32⟩
  | .hbm, ⟨17, _⟩ => ⟨S_, .f32⟩
  | .hbm, ⟨18, _⟩ => ⟨S40000, .f32⟩
  | .hbm, ⟨19, _⟩ => ⟨S40000, .f32⟩
  | .hbm, ⟨20, _⟩ => ⟨S40000, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000, .f32⟩
  | .hbm, ⟨30, _⟩ => ⟨S640000, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000, .f32⟩
  | .hbm, ⟨40, _⟩ => ⟨S640000, .f32⟩
  | .hbm, ⟨41, _⟩ => ⟨S40000, .f32⟩
  | .hbm, ⟨42, _⟩ => ⟨S40000x1, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S40000x128, .f32⟩
  | .hbm, ⟨48, _⟩ => ⟨S40000x128, .bf16⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .bf16⟩
  | .hbm, ⟨58, _⟩ => ⟨S640000x1, .f32⟩
  | .hbm, ⟨59, _⟩ => ⟨S640000x128, .f32⟩
  | .hbm, ⟨60, _⟩ => ⟨S640000x128, .f32⟩
  | .hbm, ⟨61, _⟩ => ⟨S640000x128, .f32⟩
  | .hbm, ⟨62, _⟩ => ⟨S_, .f32⟩
  | .hbm, ⟨63, _⟩ => ⟨S40000x128, .f32⟩
  | .hbm, ⟨64, _⟩ => ⟨S640000x1, .i32⟩
  | .hbm, ⟨65, _⟩ => ⟨S40000x128, .f32⟩
  | .hbm, ⟨66, _⟩ => ⟨S40000x128, .f32⟩
  | .hbm, ⟨67, _⟩ => ⟨S40000x128, .bf16⟩
  | .hbm, ⟨68, _⟩ => ⟨S_, .i32⟩
  | .hbm, ⟨69, _⟩ => ⟨S640000, .i32⟩
  | .hbm, ⟨70, _⟩ => ⟨S640000, .i1⟩
  | .hbm, ⟨71, _⟩ => ⟨S_, .i32⟩
  | .hbm, ⟨72, _⟩ => ⟨S640000, .i32⟩
  | .hbm, ⟨73, _⟩ => ⟨S640000, .i32⟩
  | .hbm, ⟨74, _⟩ => ⟨S640000, .i32⟩
  | .hbm, ⟨75, _⟩ => ⟨S640000x1, .i32⟩
  | .hbm, ⟨76, _⟩ => ⟨S640000x128, .bf16⟩
  | .hbm, ⟨77, _⟩ => ⟨S640000x1, .f32⟩
  | .hbm, ⟨78, _⟩ => ⟨S640000x128, .f32⟩
  | .hbm, ⟨79, _⟩ => ⟨S640000x128, .f32⟩
  | .hbm, ⟨80, _⟩ => ⟨S640000x128, .f32⟩
  | .hbm, ⟨81, _⟩ => ⟨S_, .f32⟩
  | .hbm, ⟨82, _⟩ => ⟨S40000x128, .f32⟩
  | .hbm, ⟨83, _⟩ => ⟨S640000x1, .i32⟩
  | .hbm, ⟨84, _⟩ => ⟨S40000x128, .f32⟩
  | .hbm, ⟨85, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .bf16⟩
  | .local _ .vmem, ⟨18, _⟩ => ⟨S5000x128, .bf16⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_c_7 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S640000_S640000x1_0 : S640000.BroadcastsInDim S640000x1 (![0] : Fin 1 → Fin S640000x1.rank)
  bcast_S_S640000 : S_.BroadcastsInDim S640000 (![] : Fin 0 → Fin S640000.rank)
  shapeCasts_S40000_S40000x1 : S40000.ShapeCasts S40000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S5000x128_S5000x128_0_0 : (Rect.unit (s := S5000x128) ![0, 0] S5000x128.size inb_S5000x128_S5000x128_0_0).PackedRows (EltTy.packing .bf16)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  dot_S5000x128_S128x128_S5000x128_1_0_0_1_n_n_wf : DotDims.WF S5000x128 S128x128 S5000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S40000x128.size a
  hwx0_2 : ∀ i : grid0.Coords, EltTy.bits .f32 = 32 ∨ (Rect.block (s := S40000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .bf16 = 32 ∨ (Rect.block (s := S40000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S40000x1.size a
  hwx1_2 : ∀ i : grid1.Coords, EltTy.bits .f32 = 32 ∨ (Rect.block (s := S40000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S40000x128.size a
  hwx1_5 : ∀ i : grid1.Coords, EltTy.bits .f32 = 32 ∨ (Rect.block (s := S40000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S40000x128.size a
  hwx1_6 : ∀ i : grid1.Coords, EltTy.bits .bf16 = 32 ∨ (Rect.block (s := S40000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S40000x128.size a
  hwx2_1 : ∀ i : grid2.Coords, EltTy.bits .f32 = 32 ∨ (Rect.block (s := S40000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S40000x1.size a
  hwx2_2 : ∀ i : grid2.Coords, EltTy.bits .f32 = 32 ∨ (Rect.block (s := S40000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S40000x128.size a
  hwx2_6 : ∀ i : grid2.Coords, EltTy.bits .f32 = 32 ∨ (Rect.block (s := S40000x128) S5000x128.size (cc2_transform_6 i) (hinb2_6 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32_1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v47_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x640000 : Shape := ⟨2, ![1, 640000]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩

abbrev nBuf : Space → Nat
  | .hbm => 154
  | .vmem => 0
  | .smem => 0
  | _ => 0

abbrev hbmTy0_0 (i : Nat) : BufTy := match i % 128 with
  | 0 => ⟨S40000x128, .f32⟩
  | 1 => ⟨S2x640000, .i32⟩
  | 2 => ⟨S640000, .f32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S1x640000, .i32⟩
  | 10 => ⟨S640000, .i32⟩
  | 11 => ⟨S1x640000, .i32⟩
  | 12 => ⟨S640000, .i32⟩
  | 13 => ⟨S40000x128, .f32⟩
  | 14 => ⟨S_, .f32⟩
  | 15 => ⟨S40000, .f32⟩
  | 16 => ⟨S640000x1, .i32⟩
  | 17 => ⟨S40000, .f32⟩
  | 18 => ⟨S_, .f32⟩
  | 19 => ⟨S40000, .f32⟩
  | 20 => ⟨S40000, .f32⟩
  | 21 => ⟨S40000, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000, .f32⟩
  | 31 => ⟨S640000, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S640000, .f32⟩
  | 41 => ⟨S640000, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000x128, .f32⟩
  | 51 => ⟨S640000x1, .f32⟩
  | 52 => ⟨S640000x128, .f32⟩
  | 53 => ⟨S640000x128, .f32⟩
  | 54 => ⟨S_, .f32⟩
  | 55 => ⟨S40000x128, .f32⟩
  | 56 => ⟨S640000x1, .i32⟩
  | 57 => ⟨S40000x128, .f32⟩
  | 58 => ⟨S40000, .f32⟩
  | 59 => ⟨S40000x1, .f32⟩
  | 60 => ⟨S40000x128, .f32⟩
  | 61 => ⟨S40000x128, .f32⟩
  | 62 => ⟨S40000x128, .f32⟩
  | 63 => ⟨S1x128, .f32⟩
  | 64 => ⟨S40000x128, .f32⟩
  | 65 => ⟨S40000x128, .f32⟩
  | 66 => ⟨S_, .f32⟩
  | 67 => ⟨S40000x128, .f32⟩
  | 68 => ⟨S40000x128, .f32⟩
  | 69 => ⟨S40000x128, .f32⟩
  | 70 => ⟨S_, .f32⟩
  | 71 => ⟨S40000, .f32⟩
  | 72 => ⟨S640000x1, .i32⟩
  | 73 => ⟨S40000, .f32⟩
  | 74 => ⟨S_, .f32⟩
  | 75 => ⟨S40000, .f32⟩
  | 76 => ⟨S40000, .f32⟩
  | 77 => ⟨S40000, .f32⟩
  | 78 => ⟨S_, .i32⟩
  | 79 => ⟨S640000, .i32⟩
  | 80 => ⟨S640000, .i1⟩
  | 81 => ⟨S_, .i32⟩
  | 82 => ⟨S640000, .i32⟩
  | 83 => ⟨S640000, .i32⟩
  | 84 => ⟨S640000, .i32⟩
  | 85 => ⟨S640000x1, .i32⟩
  | 86 => ⟨S640000, .f32⟩
  | 87 => ⟨S640000, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000, .f32⟩
  | 97 => ⟨S640000, .f32⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S640000x128, .f32⟩
  | 107 => ⟨S640000x1, .f32⟩
  | 108 => ⟨S640000x128, .f32⟩
  | 109 => ⟨S640000x128, .f32⟩
  | 110 => ⟨S_, .f32⟩
  | 111 => ⟨S40000x128, .f32⟩
  | 112 => ⟨S640000x1, .i32⟩
  | 113 => ⟨S40000x128, .f32⟩
  | 114 => ⟨S40000, .f32⟩
  | 115 => ⟨S40000x1, .f32⟩
  | 116 => ⟨S40000x128, .f32⟩
  | 117 => ⟨S40000x128, .f32⟩
  | 118 => ⟨S40000x128, .f32⟩
  | 119 => ⟨S1x128, .f32⟩
  | 120 => ⟨S40000x128, .f32⟩
  | 121 => ⟨S40000x128, .f32⟩
  | 122 => ⟨S_, .f32⟩
  | 123 => ⟨S40000x128, .f32⟩
  | 124 => ⟨S40000x128, .f32⟩
  | 125 => ⟨S_, .f32⟩
  | 126 => ⟨S40000, .f32⟩
  | 127 => ⟨S40000x1, .f32⟩
  | _ => ⟨S40000x128, .f32⟩

abbrev hbmTy0_1 (i : Nat) : BufTy := match i % 128 with
  | 0 => ⟨S_, .f32⟩
  | 1 => ⟨S40000x1, .f32⟩
  | 2 => ⟨S40000x1, .f32⟩
  | 3 => ⟨S40000x128, .f32⟩
  | 4 => ⟨S40000x128, .f32⟩
  | 5 => ⟨S40000x128, .f32⟩
  | 6 => ⟨S_, .f32⟩
  | 7 => ⟨S40000, .f32⟩
  | 8 => ⟨S40000x1, .f32⟩
  | 9 => ⟨S_, .f32⟩
  | 10 => ⟨S40000x1, .f32⟩
  | 11 => ⟨S40000x1, .f32⟩
  | 12 => ⟨S40000x128, .f32⟩
  | 13 => ⟨S40000x128, .f32⟩
  | 14 => ⟨S_, .f32⟩
  | 15 => ⟨S40000x1, .f32⟩
  | 16 => ⟨S40000x1, .f32⟩
  | 17 => ⟨S40000x1, .f32⟩
  | 18 => ⟨S40000x128, .f32⟩
  | 19 => ⟨S40000x128, .f32⟩
  | 20 => ⟨S1x128, .f32⟩
  | 21 => ⟨S40000x128, .f32⟩
  | 22 => ⟨S40000x128, .f32⟩
  | 23 => ⟨S1x128, .f32⟩
  | 24 => ⟨S40000x128, .f32⟩
  | 25 => ⟨S40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call1_cst : Ref sig .tc := ⟨.hbm, 122, rfl⟩
abbrev main_call1_v0 : Ref sig .tc := ⟨.hbm, 123, rfl⟩
abbrev main_v93 : Ref sig .tc := ⟨.hbm, 124, rfl⟩
abbrev main_cst_16 : Ref sig .tc := ⟨.hbm, 125, rfl⟩
abbrev main_v94 : Ref sig .tc := ⟨.hbm, 126, rfl⟩
abbrev main_v95 : Ref sig .tc := ⟨.hbm, 127, rfl⟩
abbrev main_cst_17 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_18 : Ref sig .tc := ⟨.hbm, 134, rfl⟩
abbrev main_v101 : Ref sig .tc := ⟨.hbm, 135, rfl⟩
abbrev main_v102 : Ref sig .tc := ⟨.hbm, 136, rfl⟩
abbrev main_cst_19 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_20 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S40000_d1 : S40000x128.ReducesTo [1] S40000
  h_S_ : 0 < S_.numel
  bcast_S_S40000x1 : S_.BroadcastsInDim S40000x1 (![] : Fin 0 → Fin S40000x1.rank)
  dot_S40000x128_S128x128_S40000x128_1_0_0_1_n_n_wf : DotDims.WF S40000x128 S128x128 S40000x128 [1] [0] [0] [1] [] []
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.KRun.lean ====
/-
  The whole run of the idealized kernel program, with its result named: every weakly fair execution of @main ends,
  nothing faulting, the result array holding what the last region's write-backs leave (the fold of the three regions
  and the host operations between them from the launch memory), the arguments as launched.
-/
import proofs.«137613_j7559142441000_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's six segments, read at the result's buffer as well as at the arguments'. -/
theorem run_result : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Whole

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«137613_j7559142441000_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«137613_j7559142441000_2_alg».proof.Proof.LibDenseRows
import proofs.«137613_j7559142441000_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.Project.lean ====
/-
  The first kernel region: the node features times the first weight matrix, one tile of 5000 rows per grid point.
  Each of the two output arrays (the f32 copy and the bf16 copy, one number at the exact instance) ends holding, at
  node p and feature j, the sum over k of x (p, k) · W (k, j).
-/
import proofs.«137613_j7559142441000_2_alg».proof.Proof.Gen.KernelIdeal.Frame
import proofs.«137613_j7559142441000_2_alg».proof.Proof.LibPlainLayers
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Project

open Cert.KernelIdeal Cert.KernelIdeal.Gen

variable (V : (c : Dev nD) → (b : Ref sig .tc) → Buf (Elt Ideal) ((c : Thread nD τ).loc b))

/-- Rows times a weight matrix: entry (p, j) is the sum over k of x (p, k) · w (k, j). -/
def proj (x : S40000x128.Idx → EReal) (w : S128x128.Idx → EReal) : S40000x128.Idx → EReal :=
  fun i => ∑ k : Fin 128, x (ix2 (⟨(i 0).val, (i 0).isLt⟩ : Fin 40000) k) * w (ix2 k (⟨(i 1).val, (i 1).isLt⟩ : Fin 128))

theorem proj_apply (x : S40000x128.Idx → EReal) (w : S128x128.Idx → EReal) (p : Fin 40000) (j : Fin 128) :
    proj x w (ix2 p j) = ∑ k : Fin 128, x (ix2 p k) * w (ix2 k j) := rfl

theorem hz : (![0, 0] : Fin 2 → Nat) = fun _ => 0 := funext fun a => by fin_cases a <;> rfl

/-- The tile's product at one entry. -/
theorem tile_apply (x0 : Vec Ideal S5000x128 .f32) (x1 : Vec Ideal S128x128 .f32) (p : Fin 5000) (j : Fin 128) :
    k0_pay1 x0 x1 (ix2 p j) = ∑ k : Fin 128, x0 (ix2 p k) * x1 (ix2 k j) := by
  unfold k0_pay1
  exact Cert.PlainLayers.plainMM_of_eq _ rfl none x0 x1 p j

/-- Where each window's block sits: the row windows move with the grid point, the weights stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A tile of rows 5000·T … 5000·T + 4999 of x times the whole of w is the same tile of the whole product. -/
theorem tile_eq (x0 : Vec Ideal S5000x128 .f32) (x1 : Vec Ideal S128x128 .f32) (X : S40000x128.Idx → EReal) (W : S128x128.Idx → EReal)
    (T : ℕ) (h0 : ∀ (y : S5000x128.Idx) (i : S40000x128.Idx), (i 0).val = T * 5000 + (y 0).val → (i 1).val = (y 1).val → x0 y = X i)
    (h1 : ∀ y : S128x128.Idx, x1 y = W y)
    (y : S5000x128.Idx) (i : S40000x128.Idx) (hi0 : (i 0).val = T * 5000 + (y 0).val) (hi1 : (i 1).val = (y 1).val) :
    k0_pay1 x0 x1 y = proj X W i := by
  obtain ⟨p, j, rfl⟩ : ∃ (p : Fin 5000) (j : Fin 128), y = ix2 p j := ⟨y 0, y 1, eq_ix2 y⟩
  rw [tile_apply]
  unfold proj
  refine Finset.sum_congr rfl fun k _ => ?_
  rw [h1]
  exact congrArg₂ (· * ·) (h0 (ix2 p k) (ix2 (⟨(i 0).val, (i 0).isLt⟩ : Fin 40000) k) hi0 rfl)
    (congrArg (fun q => W (ix2 k q)) (Fin.ext hi1.symm))

/-- A row window's block at point t is rows 5000·t … of its array. -/
theorem rows_read (A : S40000x128.Idx → EReal) (t : Fin cfg0.N) (y : S5000x128.Idx) (i : S40000x128.Idx)
    (hi0 : (i 0).val = t.val * 5000 + (y 0).val) (hi1 : (i 1).val = (y 1).val) :
    ((cfg0.win 0).blk t).view.read (Elt Ideal) A y = A i := by
  obtain ⟨e0, e1, -⟩ := idx0 t
  show A (((cfg0.win 0).blk t).view.emb y) = A i
  refine congrArg A (funext fun a => Fin.ext ?_)
  match a with
  | ⟨0, _⟩ => show win0_0.index t (0 : Fin 2) * 5000 + 1 * (y 0).val = (i 0).val; rw [e0, hi0]; omega
  | ⟨1, _⟩ => show win0_0.index t (1 : Fin 2) * 128 + 1 * (y 1).val = (i 1).val; rw [e1, hi1]; omega

/-- The weight window's block at every point is the whole matrix. -/
theorem weights_read (A : S128x128.Idx → EReal) (t : Fin cfg0.N) (y : S128x128.Idx) :
    ((cfg0.win 1).blk t).view.read (Elt Ideal) A y = A y := by
  obtain ⟨-, -, e2, e3, -⟩ := idx0 t
  show A (((cfg0.win 1).blk t).view.emb y) = A y
  refine congrArg A (funext fun a => Fin.ext ?_)
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What point t writes back through the f32 window is block t of the whole product. -/
theorem flushed2_eq (c : Dev nD) (t : Fin cfg0.N) :
    (dat0 V c).flushed 2 t = ((cfg0.win 2).blk t).view.read (Elt Ideal) (proj (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5, -⟩ := idx0 t
  funext y
  show k0_pay1 (iblk0 V c 0 t) (iblk0 V c 1 t) y = proj (V c main_arg0) (V c main_arg3) (((cfg0.win 2).blk t).view.emb y)
  refine tile_eq (iblk0 V c 0 t) (iblk0 V c 1 t) (V c main_arg0) (V c main_arg3) t.val
    (fun y' i h0 h1 => rows_read (V c main_arg0) t y' i h0 h1) (fun y' => weights_read (V c main_arg3) t y') y _ ?_ ?_
  · show win0_2.index t (0 : Fin 2) * 5000 + 1 * (y 0).val = _; rw [e4]; omega
  · show win0_2.index t (1 : Fin 2) * 128 + 1 * (y 1).val = _; rw [e5]; omega

/-- The bf16 copy is the same number at the exact instance. -/
theorem flushed3_eq (c : Dev nD) (t : Fin cfg0.N) :
    (dat0 V c).flushed 3 t = ((cfg0.win 3).blk t).view.read (Elt Ideal) (proj (V c main_arg0) (V c main_arg3)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  obtain ⟨-, -, -, -, -, -, e6, e7⟩ := idx0 t
  funext y
  show k0_pay1 (iblk0 V c 0 t) (iblk0 V c 1 t) y = proj (V c main_arg0) (V c main_arg3) (((cfg0.win 3).blk t).view.emb y)
  refine tile_eq (iblk0 V c 0 t) (iblk0 V c 1 t) (V c main_arg0) (V c main_arg3) t.val
    (fun y' i h0 h1 => rows_read (V c main_arg0) t y' i h0 h1) (fun y' => weights_read (V c main_arg3) t y') y _ ?_ ?_
  · show win0_3.index t (0 : Fin 2) * 5000 + 1 * (y 0).val = _; rw [e6]; omega
  · show win0_3.index t (1 : Fin 2) * 128 + 1 * (y 1).val = _; rw [e7]; omega

/-- The point whose tile holds row r is r / 5000. -/
theorem point_of (i : S40000x128.Idx) : ∃ t : Fin cfg0.N, t.val = (i 0).val / 5000 :=
  ⟨⟨(i 0).val / 5000, by have h : (i 0).val < 40000 := (i 0).isLt; rw [show cfg0.N = 8 from N_0]; omega⟩, rfl⟩

theorem cover2 (i : S40000x128.Idx) : ∃ t : Fin cfg0.N, (cfg0.win 2).flush t = true ∧ i ∈ ((cfg0.win 2).blk t).view.set := by
  have hi0 : (i 0).val < 40000 := (i 0).isLt
  have hi1 : (i 1).val < 128 := (i 1).isLt
  obtain ⟨t, ht⟩ := point_of i
  obtain ⟨-, -, -, -, e4, e5, -⟩ := idx0 t
  refine ⟨t, flush0_2 t, ?_⟩
  show i ∈ ((View.whole main_v32_0).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

theorem cover3 (i : S40000x128.Idx) : ∃ t : Fin cfg0.N, (cfg0.win 3).flush t = true ∧ i ∈ ((cfg0.win 3).blk t).view.set := by
  have hi0 : (i 0).val < 40000 := (i 0).isLt
  have hi1 : (i 1).val < 128 := (i 1).isLt
  obtain ⟨t, ht⟩ := point_of i
  obtain ⟨-, -, -, -, -, -, e6, e7⟩ := idx0 t
  refine ⟨t, flush0_3 t, ?_⟩
  show i ∈ ((View.whole main_v32_1).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

/-- After the region the f32 output array holds the whole product of the two arrays the region found. -/
theorem final2 (c : Dev nD) : (dat0 V c).arrAt 2 cfg0.N = proj (V c main_arg0) (V c main_arg3) :=
  (dat0 V c).arrAt_eq_of_cover 2 (proj (V c main_arg0) (V c main_arg3)) (fun t _ => flushed2_eq V c t) cover2

/-- And so does the bf16 output array. -/
theorem final3 (c : Dev nD) : (dat0 V c).arrAt 3 cfg0.N = proj (V c main_arg0) (V c main_arg3) :=
  (dat0 V c).arrAt_eq_of_cover 3 (proj (V c main_arg0) (V c main_arg3)) (fun t _ => flushed3_eq V c t) cover3

end Cert.KernelIdeal.Project

end
-- ==== Proof.Combine.lean ====
/-
  The second kernel region: one graph-convolution layer's combine step fused with the next projection, one tile of
  5000 rows per grid point. With agg the neighbours' weighted sum, h the node's own projected row, d its self-loop
  coefficient (a column) and b the bias (a row), the activation at (p, k) is  max ((agg (p, k) + h (p, k) · d p) + b k) 0,
  and each of the two output arrays (f32 and bf16: one number at the exact instance) ends holding the activations
  times the second weight matrix.
-/
import proofs.«137613_j7559142441000_2_alg».proof.Proof.Gen.KernelIdeal.Frame
import proofs.«137613_j7559142441000_2_alg».proof.Proof.Project
import proofs.«137613_j7559142441000_2_alg».proof.Proof.LibPlainLayers
import proofs.«137613_j7559142441000_2_alg».proof.Proof.LibColumns
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Combine

open Cert.KernelIdeal Cert.KernelIdeal.Gen Cert.KernelIdeal.Project

variable (V : (c : Dev nD) → (b : Ref sig .tc) → Buf (Elt Ideal) ((c : Thread nD τ).loc b))

/-- The activation: neighbours' sum plus the own row times the self-loop column, plus the bias row, cut at zero. -/
def act (agg h : S40000x128.Idx → EReal) (d : S40000x1.Idx → EReal) (b : S1x128.Idx → EReal) : S40000x128.Idx → EReal :=
  fun i => max ((agg i + h i * d (ix2 (⟨(i 0).val, (i 0).isLt⟩ : Fin 40000) (0 : Fin 1)))
    + b (ix2 (0 : Fin 1) (⟨(i 1).val, (i 1).isLt⟩ : Fin 128))) 0

theorem act_apply (agg h : S40000x128.Idx → EReal) (d : S40000x1.Idx → EReal) (b : S1x128.Idx → EReal) (p : Fin 40000) (k : Fin 128) :
    act agg h d b (ix2 p k) = max ((agg (ix2 p k) + h (ix2 p k) * d (ix2 p (0 : Fin 1))) + b (ix2 (0 : Fin 1) k)) 0 := rfl

/-- The region's whole-array function: the activations times the weights. -/
def layer (agg h : S40000x128.Idx → EReal) (d : S40000x1.Idx → EReal) (b : S1x128.Idx → EReal) (w : S128x128.Idx → EReal) :
    S40000x128.Idx → EReal := proj (act agg h d b) w

/-- The body's activation on one tile, at an entry: the recasts are of a shape to itself. -/
theorem body_act_apply (v0 v2 : Vec Ideal S5000x128 .f32) (v4 : Vec Ideal S5000x1 .f32) (v9 : Vec Ideal S1x128 .f32) (p : Fin 5000) (k : Fin 128) :
    maximumf (addf (addf (shapeCast S5000x128 v0 shapeCasts_S5000x128_S5000x128)
          (mulf (shapeCast S5000x128 v2 shapeCasts_S5000x128_S5000x128)
            (broadcastTo S5000x128 (shapeCast S5000x1 v4 shapeCasts_S5000x1_S5000x1) broadcasts_S5000x1_S5000x128)))
        (broadcastTo S5000x128 (shapeCast S1x128 v9 shapeCasts_S1x128_S1x128) broadcasts_S1x128_S5000x128))
      (broadcast S5000x128 (Scalar.ofBits (F := Ideal) .f32 0x00000000#32)) (ix2 p k)
      = max ((v0 (ix2 p k) + v2 (ix2 p k) * v4 (ix2 p (0 : Fin 1))) + v9 (ix2 (0 : Fin 1) k)) 0 :=
  congrArg₂ max
    (congrArg₂ (· + ·)
      (congrArg₂ (· + ·) (congrFun (shapeCast_self v0 _) _)
        (congrArg₂ (· * ·) (congrFun (shapeCast_self v2 _) _)
          ((Cert.Columns.broadcastTo_a1_ab_apply _ _ p k).trans (congrFun (shapeCast_self v4 _) _))))
      ((broadcastTo_1b_ab_apply _ _ p k).trans (congrFun (shapeCast_self v9 _) _)))
    Ideal.ofBits_zero_f32

/-- The tile's activations times the weights at one entry. -/
theorem tile_apply (v0 v2 : Vec Ideal S5000x128 .f32) (v4 : Vec Ideal S5000x1 .f32) (v9 : Vec Ideal S1x128 .f32) (v15 : Vec Ideal S128x128 .f32)
    (p : Fin 5000) (j : Fin 128) :
    k1_pay1 v0 v2 v4 v9 v15 (ix2 p j)
      = ∑ k : Fin 128, max ((v0 (ix2 p k) + v2 (ix2 p k) * v4 (ix2 p (0 : Fin 1))) + v9 (ix2 (0 : Fin 1) k)) 0 * v15 (ix2 k j) := by
  unfold k1_pay1
  refine (Cert.PlainLayers.plainMM_of_eq _ rfl none _ v15 p j).trans ?_
  exact Finset.sum_congr rfl fun k _ => congrArg (· * v15 (ix2 k j)) (body_act_apply v0 v2 v4 v9 p k)

/-- Where each window's block sits at a grid point: the row windows move with the point, the others stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- A tile of the region's inputs (rows 5000·T … of the row arrays, the whole bias row and weights) gives the same tile of the whole-array function. -/
theorem tile_eq (x0 x1 : Vec Ideal S5000x128 .f32) (x2 : Vec Ideal S5000x1 .f32) (x3 : Vec Ideal S1x128 .f32) (x4 : Vec Ideal S128x128 .f32)
    (AGG H : S40000x128.Idx → EReal) (D : S40000x1.Idx → EReal) (B : S1x128.Idx → EReal) (W : S128x128.Idx → EReal) (T : ℕ)
    (h0 : ∀ (y : S5000x128.Idx) (i : S40000x128.Idx), (i 0).val = T * 5000 + (y 0).val → (i 1).val = (y 1).val → x0 y = AGG i)
    (h1 : ∀ (y : S5000x128.Idx) (i : S40000x128.Idx), (i 0).val = T * 5000 + (y 0).val → (i 1).val = (y 1).val → x1 y = H i)
    (h2 : ∀ (y : S5000x1.Idx) (i : S40000x1.Idx), (i 0).val = T * 5000 + (y 0).val → (i 1).val = (y 1).val → x2 y = D i)
    (h3 : ∀ y : S1x128.Idx, x3 y = B y) (h4 : ∀ y : S128x128.Idx, x4 y = W y)
    (y : S5000x128.Idx) (i : S40000x128.Idx) (hi0 : (i 0).val = T * 5000 + (y 0).val) (hi1 : (i 1).val = (y 1).val) :
    k1_pay1 x0 x1 x2 x3 x4 y = layer AGG H D B W i := by
  obtain ⟨p, j, rfl⟩ : ∃ (p : Fin 5000) (j : Fin 128), y = ix2 p j := ⟨y 0, y 1, eq_ix2 y⟩
  rw [tile_apply]
  unfold layer proj
  refine Finset.sum_congr rfl fun k _ => ?_
  rw [h4, act_apply, h3]
  refine congrArg₂ (· * ·) (congrArg (max · 0) (congrArg (· + B (ix2 (0 : Fin 1) k)) (congrArg₂ (· + ·) ?_ (congrArg₂ (· * ·) ?_ ?_))))
    (congrArg (fun q => W (ix2 k q)) (Fin.ext hi1.symm))
  · exact h0 (ix2 p k) (ix2 (⟨(i 0).val, (i 0).isLt⟩ : Fin 40000) k) hi0 rfl
  · exact h1 (ix2 p k) (ix2 (⟨(i 0).val, (i 0).isLt⟩ : Fin 40000) k) hi0 rfl
  · exact h2 (ix2 p (0 : Fin 1)) (ix2 (⟨(i 0).val, (i 0).isLt⟩ : Fin 40000) (0 : Fin 1)) hi0 rfl

/-- Window 0's block at point t is rows 5000·t … 5000·t + 4999 of its array. -/
theorem read1_0 (A : S40000x128.Idx → EReal) (t : Fin cfg1.N) (y : S5000x128.Idx) (i : S40000x128.Idx)
    (hi0 : (i 0).val = t.val * 5000 + (y 0).val) (hi1 : (i 1).val = (y 1).val) :
    ((cfg1.win 0).blk t).view.read (Elt Ideal) A y = A i := by
  obtain ⟨e0, e1, -⟩ := idx1 t
  show A (((cfg1.win 0).blk t).view.emb y) = A i
  refine congrArg A (funext fun a => Fin.ext ?_)
  match a with
  | ⟨0, _⟩ => show win1_0.index t (0 : Fin 2) * 5000 + 1 * (y 0).val = (i 0).val; rw [e0, hi0]; omega
  | ⟨1, _⟩ => show win1_0.index t (1 : Fin 2) * 128 + 1 * (y 1).val = (i 1).val; rw [e1, hi1]; omega

/-- Window 1's block at point t is rows 5000·t … 5000·t + 4999 of its array. -/
theorem read1_1 (A : S40000x128.Idx → EReal) (t : Fin cfg1.N) (y : S5000x128.Idx) (i : S40000x128.Idx)
    (hi0 : (i 0).val = t.val * 5000 + (y 0).val) (hi1 : (i 1).val = (y 1).val) :
    ((cfg1.win 1).blk t).view.read (Elt Ideal) A y = A i := by
  obtain ⟨-, -, e0, e1, -⟩ := idx1 t
  show A (((cfg1.win 1).blk t).view.emb y) = A i
  refine congrArg A (funext fun a => Fin.ext ?_)
  match a with
  | ⟨0, _⟩ => show win1_1.index t (0 : Fin 2) * 5000 + 1 * (y 0).val = (i 0).val; rw [e0, hi0]; omega
  | ⟨1, _⟩ => show win1_1.index t (1 : Fin 2) * 128 + 1 * (y 1).val = (i 1).val; rw [e1, hi1]; omega

/-- Window 2's block at point t is rows 5000·t … 5000·t + 4999 of its array. -/
theorem read1_2 (A : S40000x1.Idx → EReal) (t : Fin cfg1.N) (y : S5000x1.Idx) (i : S40000x1.Idx)
    (hi0 : (i 0).val = t.val * 5000 + (y 0).val) (hi1 : (i 1).val = (y 1).val) :
    ((cfg1.win 2).blk t).view.read (Elt Ideal) A y = A i := by
  obtain ⟨-, -, -, -, e0, e1, -⟩ := idx1 t
  show A (((cfg1.win 2).blk t).view.emb y) = A i
  refine congrArg A (funext fun a => Fin.ext ?_)
  match a with
  | ⟨0, _⟩ => show win1_2.index t (0 : Fin 2) * 5000 + 1 * (y 0).val = (i 0).val; rw [e0, hi0]; omega
  | ⟨1, _⟩ => show win1_2.index t (1 : Fin 2) * 1 + 1 * (y 1).val = (i 1).val; rw [e1, hi1]; omega

/-- Window 3's block at every point is its whole array. -/
theorem read1_3 (A : S1x128.Idx → EReal) (t : Fin cfg1.N) (y : S1x128.Idx) :
    ((cfg1.win 3).blk t).view.read (Elt Ideal) A y = A y := by
  obtain ⟨-, -, -, -, -, -, e0, e1, -⟩ := idx1 t
  show A (((cfg1.win 3).blk t).view.emb y) = A y
  refine congrArg A (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- Window 4's block at every point is its whole array. -/
theorem read1_4 (A : S128x128.Idx → EReal) (t : Fin cfg1.N) (y : S128x128.Idx) :
    ((cfg1.win 4).blk t).view.read (Elt Ideal) A y = A y := by
  obtain ⟨-, -, -, -, -, -, -, -, e0, e1, -⟩ := idx1 t
  show A (((cfg1.win 4).blk t).view.emb y) = A y
  refine congrArg A (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- What point t writes back through the f32 window is block t of the whole-array function. -/
theorem flushed1_5_eq (c : Dev nD) (t : Fin cfg1.N) :
    (dat1 V c).flushed 5 t = ((cfg1.win 5).blk t).view.read (Elt Ideal)
      (layer (V c main_v46) (V c main_v32_0) (V c main_v27) (V c main_v28) (V c main_arg5)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S5000x1) hz,
    View.ld_unit_zero (S := S1x128) hz]
  obtain ⟨-, -, -, -, -, -, -, -, -, -, e0, e1, -⟩ := idx1 t
  funext y
  show k1_pay1 (iblk1 V c 0 t) (iblk1 V c 1 t) (iblk1 V c 2 t) (iblk1 V c 3 t) (iblk1 V c 4 t) y
    = layer (V c main_v46) (V c main_v32_0) (V c main_v27) (V c main_v28) (V c main_arg5) (((cfg1.win 5).blk t).view.emb y)
  refine tile_eq (iblk1 V c 0 t) (iblk1 V c 1 t) (iblk1 V c 2 t) (iblk1 V c 3 t) (iblk1 V c 4 t)
    (V c main_v46) (V c main_v32_0) (V c main_v27) (V c main_v28) (V c main_arg5) t.val
    (fun y' i h0 h1 => read1_0 (V c main_v46) t y' i h0 h1) (fun y' i h0 h1 => read1_1 (V c main_v32_0) t y' i h0 h1)
    (fun y' i h0 h1 => read1_2 (V c main_v27) t y' i h0 h1) (fun y' => read1_3 (V c main_v28) t y')
    (fun y' => read1_4 (V c main_arg5) t y') y _ ?_ ?_
  · show win1_5.index t (0 : Fin 2) * 5000 + 1 * (y 0).val = _; rw [e0]; omega
  · show win1_5.index t (1 : Fin 2) * 128 + 1 * (y 1).val = _; rw [e1]; omega

/-- The bf16 copy is the same number at the exact instance. -/
theorem flushed1_6_eq (c : Dev nD) (t : Fin cfg1.N) :
    (dat1 V c).flushed 6 t = ((cfg1.win 6).blk t).view.read (Elt Ideal)
      (layer (V c main_v46) (V c main_v32_0) (V c main_v27) (V c main_v28) (V c main_arg5)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S5000x1) hz,
    View.ld_unit_zero (S := S1x128) hz]
  obtain ⟨-, -, -, -, -, -, -, -, -, -, -, -, e0, e1⟩ := idx1 t
  funext y
  show k1_pay1 (iblk1 V c 0 t) (iblk1 V c 1 t) (iblk1 V c 2 t) (iblk1 V c 3 t) (iblk1 V c 4 t) y
    = layer (V c main_v46) (V c main_v32_0) (V c main_v27) (V c main_v28) (V c main_arg5) (((cfg1.win 6).blk t).view.emb y)
  refine tile_eq (iblk1 V c 0 t) (iblk1 V c 1 t) (iblk1 V c 2 t) (iblk1 V c 3 t) (iblk1 V c 4 t)
    (V c main_v46) (V c main_v32_0) (V c main_v27) (V c main_v28) (V c main_arg5) t.val
    (fun y' i h0 h1 => read1_0 (V c main_v46) t y' i h0 h1) (fun y' i h0 h1 => read1_1 (V c main_v32_0) t y' i h0 h1)
    (fun y' i h0 h1 => read1_2 (V c main_v27) t y' i h0 h1) (fun y' => read1_3 (V c main_v28) t y')
    (fun y' => read1_4 (V c main_arg5) t y') y _ ?_ ?_
  · show win1_6.index t (0 : Fin 2) * 5000 + 1 * (y 0).val = _; rw [e0]; omega
  · show win1_6.index t (1 : Fin 2) * 128 + 1 * (y 1).val = _; rw [e1]; omega

/-- The point whose tile holds row r is r / 5000. -/
theorem point_of1 (i : S40000x128.Idx) : ∃ t : Fin cfg1.N, t.val = (i 0).val / 5000 :=
  ⟨⟨(i 0).val / 5000, by have h : (i 0).val < 40000 := (i 0).isLt; rw [show cfg1.N = 8 from N_1]; omega⟩, rfl⟩

theorem cover1_5 (i : S40000x128.Idx) : ∃ t : Fin cfg1.N, (cfg1.win 5).flush t = true ∧ i ∈ ((cfg1.win 5).blk t).view.set := by
  have hi0 : (i 0).val < 40000 := (i 0).isLt
  have hi1 : (i 1).val < 128 := (i 1).isLt
  obtain ⟨t, ht⟩ := point_of1 i
  obtain ⟨-, -, -, -, -, -, -, -, -, -, e0, e1, -⟩ := idx1 t
  refine ⟨t, flush1_5 t, ?_⟩
  show i ∈ ((View.whole main_v47_0).slice (win1_5.rect t)).set
  rw [View.set_slice_whole, Rect.mem_set_unit]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

theorem cover1_6 (i : S40000x128.Idx) : ∃ t : Fin cfg1.N, (cfg1.win 6).flush t = true ∧ i ∈ ((cfg1.win 6).blk t).view.set := by
  have hi0 : (i 0).val < 40000 := (i 0).isLt
  have hi1 : (i 1).val < 128 := (i 1).isLt
  obtain ⟨t, ht⟩ := point_of1 i
  obtain ⟨-, -, -, -, -, -, -, -, -, -, -, -, e0, e1⟩ := idx1 t
  refine ⟨t, flush1_6 t, ?_⟩
  show i ∈ ((View.whole main_v47_1).slice (win1_6.rect t)).set
  rw [View.set_slice_whole, Rect.mem_set_unit]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 128 ≤ (i 1).val ∧ (i 1).val < win1_6.index t (1 : Fin 2) * 128 + 128; rw [e1]; omega

/-- After the region the f32 output array holds the layer's whole-array function of the arrays the region found. -/
theorem final5 (c : Dev nD) : (dat1 V c).arrAt 5 cfg1.N = layer (V c main_v46) (V c main_v32_0) (V c main_v27) (V c main_v28) (V c main_arg5) :=
  (dat1 V c).arrAt_eq_of_cover 5 (layer (V c main_v46) (V c main_v32_0) (V c main_v27) (V c main_v28) (V c main_arg5))
    (fun t _ => flushed1_5_eq V c t) cover1_5

/-- And so does the bf16 output array. -/
theorem final6 (c : Dev nD) : (dat1 V c).arrAt 6 cfg1.N = layer (V c main_v46) (V c main_v32_0) (V c main_v27) (V c main_v28) (V c main_arg5) :=
  (dat1 V c).arrAt_eq_of_cover 6 (layer (V c main_v46) (V c main_v32_0) (V c main_v27) (V c main_v28) (V c main_arg5))
    (fun t _ => flushed1_6_eq V c t) cover1_6

end Cert.KernelIdeal.Combine

end
-- ==== Proof.Normalize.lean ====
/-
  The third kernel region: the second layer's combine step fused with a layer normalisation over the 128 features of
  each node. With a the activations of a row, the row's mean is μ = (Σₖ a k) / 128, its variance
  v = (Σₖ (a k − μ)²) / 128, and the output at feature j is ((a j − μ) · rsqrt (v + ε)) · γ j + β j.
-/
import proofs.«137613_j7559142441000_2_alg».proof.Proof.Gen.KernelIdeal.Frame
import proofs.«137613_j7559142441000_2_alg».proof.Proof.Combine
import proofs.«137613_j7559142441000_2_alg».proof.Proof.LibColumns
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Normalize

open Cert.KernelIdeal Cert.KernelIdeal.Gen Cert.KernelIdeal.Project Cert.KernelIdeal.Combine

variable (V : (c : Dev nD) → (b : Ref sig .tc) → Buf (Elt Ideal) ((c : Thread nD τ).loc b))

/-- The number of features, as the f32 word both programs divide by. -/
def width : EReal := Ideal.ofBits .f32 0x43000000#32
/-- The variance floor, as the f32 word both programs add. -/
def floor : EReal := Ideal.ofBits .f32 0x3727C5AC#32

/-- A row's mean. -/
def mean (r : Fin 128 → EReal) : EReal := Ideal.div (∑ k : Fin 128, r k) width

/-- A row normalised, scaled and shifted, at feature j. -/
def normRow (r : Fin 128 → EReal) (g be : EReal) (j : Fin 128) : EReal :=
  ((r j - mean r) * Ideal.rsqrt (mean (fun k => (r k - mean r) * (r k - mean r)) + floor)) * g + be

/-- Every row of an array normalised, with the scale and shift rows. -/
def normed (a : S40000x128.Idx → EReal) (g be : S1x128.Idx → EReal) : S40000x128.Idx → EReal :=
  fun i => normRow (fun k => a (ix2 (⟨(i 0).val, (i 0).isLt⟩ : Fin 40000) k))
    (g (ix2 (0 : Fin 1) (⟨(i 1).val, (i 1).isLt⟩ : Fin 128))) (be (ix2 (0 : Fin 1) (⟨(i 1).val, (i 1).isLt⟩ : Fin 128)))
    (⟨(i 1).val, (i 1).isLt⟩ : Fin 128)

/-- The region's whole-array function: the activations, normalised. -/
def output (agg h : S40000x128.Idx → EReal) (d : S40000x1.Idx → EReal) (b g be : S1x128.Idx → EReal) : S40000x128.Idx → EReal :=
  normed (act agg h d b) g be

/-! The body's pieces on one tile. -/

/-- The activations of a tile, as the body spells them. -/
def actTile (v0 v2 : Vec Ideal S5000x128 .f32) (v4 : Vec Ideal S5000x1 .f32) (v9 : Vec Ideal S1x128 .f32) : FVec Ideal S5000x128 .f32 :=
  maximumf (addf (addf (shapeCast S5000x128 v0 shapeCasts_S5000x128_S5000x128)
        (mulf (shapeCast S5000x128 v2 shapeCasts_S5000x128_S5000x128)
          (broadcastTo S5000x128 (shapeCast S5000x1 v4 shapeCasts_S5000x1_S5000x1) broadcasts_S5000x1_S5000x128)))
      (broadcastTo S5000x128 (shapeCast S1x128 v9 shapeCasts_S1x128_S1x128) broadcasts_S1x128_S5000x128))
    (broadcast S5000x128 (Scalar.ofBits (F := Ideal) .f32 0x00000000#32))

/-- A tile's row sums kept as a column, over the width. -/
def meanCol (a : FVec Ideal S5000x128 .f32) : FVec Ideal S5000x1 .f32 :=
  divf (shapeCast S5000x1 (multiReduction .add [1] S5000 a 0x00000000#32 reduces_S5000x128_S5000 (.inl rfl) rfl) shapeCasts_S5000_S5000x1)
    (broadcast S5000x1 (Scalar.ofBits (F := Ideal) .f32 0x43000000#32))

/-- A tile with each row's mean taken off. -/
def centred (a : FVec Ideal S5000x128 .f32) : FVec Ideal S5000x128 .f32 :=
  subf a (broadcastTo S5000x128 (meanCol a) broadcasts_S5000x1_S5000x128)

/-- The reciprocal standard deviations, a column. -/
def rstd (a : FVec Ideal S5000x128 .f32) : FVec Ideal S5000x1 .f32 :=
  rsqrt (addf (meanCol (mulf (centred a) (centred a))) (broadcast S5000x1 (Scalar.ofBits (F := Ideal) .f32 0x3727C5AC#32)))

/-- The normalisation of a tile, as the body spells it. -/
def normTile (a : FVec Ideal S5000x128 .f32) (g be : Vec Ideal S1x128 .f32) : FVec Ideal S5000x128 .f32 :=
  addf (mulf (mulf (centred a) (broadcastTo S5000x128 (rstd a) broadcasts_S5000x1_S5000x128))
      (broadcastTo S5000x128 (shapeCast S1x128 g shapeCasts_S1x128_S1x128) broadcasts_S1x128_S5000x128))
    (broadcastTo S5000x128 (shapeCast S1x128 be shapeCasts_S1x128_S1x128) broadcasts_S1x128_S5000x128)

/-- The body's result is the normalisation of its activations. -/
theorem pay_eq (v0 v2 : Vec Ideal S5000x128 .f32) (v4 : Vec Ideal S5000x1 .f32) (v9 v33 v37 : Vec Ideal S1x128 .f32) :
    k2_pay1 v0 v2 v4 v9 v33 v37 = normTile (actTile v0 v2 v4 v9) v33 v37 := rfl

theorem meanCol_apply (a : FVec Ideal S5000x128 .f32) (p : Fin 5000) (u : Fin 1) :
    meanCol a (ix2 p u) = mean (fun k => a (ix2 p k)) := by
  unfold meanCol mean
  exact congrArg (Ideal.div · width) (Cert.Columns.keepdimsSum_apply a _ _ _ _ _ p u)

theorem centred_apply (a : FVec Ideal S5000x128 .f32) (p : Fin 5000) (j : Fin 128) :
    centred a (ix2 p j) = a (ix2 p j) - mean (fun k => a (ix2 p k)) := by
  unfold centred
  exact congrArg (a (ix2 p j) - ·) ((Cert.Columns.broadcastTo_a1_ab_apply _ _ p j).trans (meanCol_apply a p 0))

theorem rstd_apply (a : FVec Ideal S5000x128 .f32) (p : Fin 5000) (u : Fin 1) :
    rstd a (ix2 p u) = Ideal.rsqrt (mean (fun k => (a (ix2 p k) - mean (fun k' => a (ix2 p k'))) * (a (ix2 p k) - mean (fun k' => a (ix2 p k')))) + floor) := by
  unfold rstd
  refine congrArg (fun x => Ideal.rsqrt (x + floor)) ?_
  exact (meanCol_apply _ p u).trans (congrArg mean (funext fun k => congrArg₂ (· * ·) (centred_apply a p k) (centred_apply a p k)))

theorem normTile_apply (a : FVec Ideal S5000x128 .f32) (g be : Vec Ideal S1x128 .f32) (p : Fin 5000) (j : Fin 128) :
    normTile a g be (ix2 p j) = normRow (fun k => a (ix2 p k)) (g (ix2 (0 : Fin 1) j)) (be (ix2 (0 : Fin 1) j)) j := by
  unfold normTile normRow
  exact congrArg₂ (· + ·)
    (congrArg₂ (· * ·)
      (congrArg₂ (· * ·) (centred_apply a p j) ((Cert.Columns.broadcastTo_a1_ab_apply _ _ p j).trans (rstd_apply a p 0)))
      ((broadcastTo_1b_ab_apply _ _ p j).trans (congrFun (shapeCast_self g _) _)))
    ((broadcastTo_1b_ab_apply _ _ p j).trans (congrFun (shapeCast_self be _) _))

/-- The tile's result at one entry. -/
theorem tile_apply (v0 v2 : Vec Ideal S5000x128 .f32) (v4 : Vec Ideal S5000x1 .f32) (v9 v33 v37 : Vec Ideal S1x128 .f32)
    (p : Fin 5000) (j : Fin 128) :
    k2_pay1 v0 v2 v4 v9 v33 v37 (ix2 p j)
      = normRow (fun k => max ((v0 (ix2 p k) + v2 (ix2 p k) * v4 (ix2 p (0 : Fin 1))) + v9 (ix2 (0 : Fin 1) k)) 0)
          (v33 (ix2 (0 : Fin 1) j)) (v37 (ix2 (0 : Fin 1) j)) j := by
  rw [pay_eq]
  refine (normTile_apply _ v33 v37 p j).trans ?_
  exact congrArg (fun r => normRow r (v33 (ix2 (0 : Fin 1) j)) (v37 (ix2 (0 : Fin 1) j)) j)
    (funext fun k => Cert.KernelIdeal.Combine.body_act_apply v0 v2 v4 v9 p k)

/-- Where each window's block sits at a grid point: the row windows move with the point, the others stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A tile of the region's inputs gives the same tile of the whole-array function. -/
theorem tile_eq (x0 x1 : Vec Ideal S5000x128 .f32) (x2 : Vec Ideal S5000x1 .f32) (x3 x4 x5 : Vec Ideal S1x128 .f32)
    (AGG H : S40000x128.Idx → EReal) (D : S40000x1.Idx → EReal) (B G BE : S1x128.Idx → EReal) (T : ℕ)
    (h0 : ∀ (y : S5000x128.Idx) (i : S40000x128.Idx), (i 0).val = T * 5000 + (y 0).val → (i 1).val = (y 1).val → x0 y = AGG i)
    (h1 : ∀ (y : S5000x128.Idx) (i : S40000x128.Idx), (i 0).val = T * 5000 + (y 0).val → (i 1).val = (y 1).val → x1 y = H i)
    (h2 : ∀ (y : S5000x1.Idx) (i : S40000x1.Idx), (i 0).val = T * 5000 + (y 0).val → (i 1).val = (y 1).val → x2 y = D i)
    (h3 : ∀ y : S1x128.Idx, x3 y = B y) (h4 : ∀ y : S1x128.Idx, x4 y = G y) (h5 : ∀ y : S1x128.Idx, x5 y = BE y)
    (y : S5000x128.Idx) (i : S40000x128.Idx) (hi0 : (i 0).val = T * 5000 + (y 0).val) (hi1 : (i 1).val = (y 1).val) :
    k2_pay1 x0 x1 x2 x3 x4 x5 y = output AGG H D B G BE i := by
  obtain ⟨p, j, rfl⟩ : ∃ (p : Fin 5000) (j : Fin 128), y = ix2 p j := ⟨y 0, y 1, eq_ix2 y⟩
  rw [tile_apply]
  unfold output normed
  have hj : j = (⟨(i 1).val, (i 1).isLt⟩ : Fin 128) := Fin.ext hi1.symm
  rw [h4, h5, ← hj]
  refine congrArg (fun r => normRow r (G (ix2 (0 : Fin 1) j)) (BE (ix2 (0 : Fin 1) j)) j) (funext fun k => ?_)
  rw [act_apply, h3]
  refine congrArg (max · 0) (congrArg (· + B (ix2 (0 : Fin 1) k)) (congrArg₂ (· + ·) ?_ (congrArg₂ (· * ·) ?_ ?_)))
  · exact h0 (ix2 p k) (ix2 (⟨(i 0).val, (i 0).isLt⟩ : Fin 40000) k) hi0 rfl
  · exact h1 (ix2 p k) (ix2 (⟨(i 0).val, (i 0).isLt⟩ : Fin 40000) k) hi0 rfl
  · exact h2 (ix2 p (0 : Fin 1)) (ix2 (⟨(i 0).val, (i 0).isLt⟩ : Fin 40000) (0 : Fin 1)) hi0 rfl

/-- Window 0's block at point t is rows 5000·t … 5000·t + 4999 of its array. -/
theorem read2_0 (A : S40000x128.Idx → EReal) (t : Fin cfg2.N) (y : S5000x128.Idx) (i : S40000x128.Idx)
    (hi0 : (i 0).val = t.val * 5000 + (y 0).val) (hi1 : (i 1).val = (y 1).val) :
    ((cfg2.win 0).blk t).view.read (Elt Ideal) A y = A i := by
  obtain ⟨e0, e1, -⟩ := idx2 t
  show A (((cfg2.win 0).blk t).view.emb y) = A i
  refine congrArg A (funext fun a => Fin.ext ?_)
  match a with
  | ⟨0, _⟩ => show win2_0.index t (0 : Fin 2) * 5000 + 1 * (y 0).val = (i 0).val; rw [e0, hi0]; omega
  | ⟨1, _⟩ => show win2_0.index t (1 : Fin 2) * 128 + 1 * (y 1).val = (i 1).val; rw [e1, hi1]; omega

/-- Window 1's block at point t is rows 5000·t … 5000·t + 4999 of its array. -/
theorem read2_1 (A : S40000x128.Idx → EReal) (t : Fin cfg2.N) (y : S5000x128.Idx) (i : S40000x128.Idx)
    (hi0 : (i 0).val = t.val * 5000 + (y 0).val) (hi1 : (i 1).val = (y 1).val) :
    ((cfg2.win 1).blk t).view.read (Elt Ideal) A y = A i := by
  obtain ⟨-, -, e0, e1, -⟩ := idx2 t
  show A (((cfg2.win 1).blk t).view.emb y) = A i
  refine congrArg A (funext fun a => Fin.ext ?_)
  match a with
  | ⟨0, _⟩ => show win2_1.index t (0 : Fin 2) * 5000 + 1 * (y 0).val = (i 0).val; rw [e0, hi0]; omega
  | ⟨1, _⟩ => show win2_1.index t (1 : Fin 2) * 128 + 1 * (y 1).val = (i 1).val; rw [e1, hi1]; omega

/-- Window 2's block at point t is rows 5000·t … 5000·t + 4999 of its array. -/
theorem read2_2 (A : S40000x1.Idx → EReal) (t : Fin cfg2.N) (y : S5000x1.Idx) (i : S40000x1.Idx)
    (hi0 : (i 0).val = t.val * 5000 + (y 0).val) (hi1 : (i 1).val = (y 1).val) :
    ((cfg2.win 2).blk t).view.read (Elt Ideal) A y = A i := by
  obtain ⟨-, -, -, -, e0, e1, -⟩ := idx2 t
  show A (((cfg2.win 2).blk t).view.emb y) = A i
  refine congrArg A (funext fun a => Fin.ext ?_)
  match a with
  | ⟨0, _⟩ => show win2_2.index t (0 : Fin 2) * 5000 + 1 * (y 0).val = (i 0).val; rw [e0, hi0]; omega
  | ⟨1, _⟩ => show win2_2.index t (1 : Fin 2) * 1 + 1 * (y 1).val = (i 1).val; rw [e1, hi1]; omega

/-- Window 3's block at every point is its whole array. -/
theorem read2_3 (A : S1x128.Idx → EReal) (t : Fin cfg2.N) (y : S1x128.Idx) :
    ((cfg2.win 3).blk t).view.read (Elt Ideal) A y = A y := by
  obtain ⟨-, -, -, -, -, -, e0, e1, -⟩ := idx2 t
  show A (((cfg2.win 3).blk t).view.emb y) = A y
  refine congrArg A (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- Window 4's block at every point is its whole array. -/
theorem read2_4 (A : S1x128.Idx → EReal) (t : Fin cfg2.N) (y : S1x128.Idx) :
    ((cfg2.win 4).blk t).view.read (Elt Ideal) A y = A y := by
  obtain ⟨-, -, -, -, -, -, -, -, e0, e1, -⟩ := idx2 t
  show A (((cfg2.win 4).blk t).view.emb y) = A y
  refine congrArg A (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- Window 5's block at every point is its whole array. -/
theorem read2_5 (A : S1x128.Idx → EReal) (t : Fin cfg2.N) (y : S1x128.Idx) :
    ((cfg2.win 5).blk t).view.read (Elt Ideal) A y = A y := by
  obtain ⟨-, -, -, -, -, -, -, -, -, -, e0, e1, -⟩ := idx2 t
  show A (((cfg2.win 5).blk t).view.emb y) = A y
  refine congrArg A (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- What point t writes back is block t of the whole-array function. -/
theorem flushed2_6_eq (c : Dev nD) (t : Fin cfg2.N) :
    (dat2 V c).flushed 6 t = ((cfg2.win 6).blk t).view.read (Elt Ideal)
      (output (V c main_v61) (V c main_v47_0) (V c main_v27) (V c main_v29) (V c main_v30) (V c main_v31)) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S1x128) hz]
  obtain ⟨-, -, -, -, -, -, -, -, -, -, -, -, e0, e1⟩ := idx2 t
  funext y
  show k2_pay1 (iblk2 V c 0 t) (iblk2 V c 1 t) (iblk2 V c 2 t) (iblk2 V c 3 t) (iblk2 V c 4 t) (iblk2 V c 5 t) y
    = output (V c main_v61) (V c main_v47_0) (V c main_v27) (V c main_v29) (V c main_v30) (V c main_v31) (((cfg2.win 6).blk t).view.emb y)
  refine tile_eq (iblk2 V c 0 t) (iblk2 V c 1 t) (iblk2 V c 2 t) (iblk2 V c 3 t) (iblk2 V c 4 t) (iblk2 V c 5 t)
    (V c main_v61) (V c main_v47_0) (V c main_v27) (V c main_v29) (V c main_v30) (V c main_v31) t.val
    (fun y' i h0 h1 => read2_0 (V c main_v61) t y' i h0 h1) (fun y' i h0 h1 => read2_1 (V c main_v47_0) t y' i h0 h1)
    (fun y' i h0 h1 => read2_2 (V c main_v27) t y' i h0 h1) (fun y' => read2_3 (V c main_v29) t y')
    (fun y' => read2_4 (V c main_v30) t y') (fun y' => read2_5 (V c main_v31) t y') y _ ?_ ?_
  · show win2_6.index t (0 : Fin 2) * 5000 + 1 * (y 0).val = _; rw [e0]; omega
  · show win2_6.index t (1 : Fin 2) * 128 + 1 * (y 1).val = _; rw [e1]; omega

/-- The point whose tile holds row r is r / 5000. -/
theorem point_of2 (i : S40000x128.Idx) : ∃ t : Fin cfg2.N, t.val = (i 0).val / 5000 :=
  ⟨⟨(i 0).val / 5000, by have h : (i 0).val < 40000 := (i 0).isLt; rw [show cfg2.N = 8 from N_2]; omega⟩, rfl⟩

theorem cover2_6 (i : S40000x128.Idx) : ∃ t : Fin cfg2.N, (cfg2.win 6).flush t = true ∧ i ∈ ((cfg2.win 6).blk t).view.set := by
  have hi0 : (i 0).val < 40000 := (i 0).isLt
  have hi1 : (i 1).val < 128 := (i 1).isLt
  obtain ⟨t, ht⟩ := point_of2 i
  obtain ⟨-, -, -, -, -, -, -, -, -, -, -, -, e0, e1⟩ := idx2 t
  refine ⟨t, flush2_6 t, ?_⟩
  show i ∈ ((View.whole main_v62).slice (win2_6.rect t)).set
  rw [View.set_slice_whole, Rect.mem_set_unit]
  intro a
  match a with
  | ⟨0, _⟩ => show win2_6.index t (0 : Fin 2) * 5000 ≤ (i 0).val ∧ (i 0).val < win2_6.index t (0 : Fin 2) * 5000 + 5000; rw [e0, ht]; omega
  | ⟨1, _⟩ => show win2_6.index t (1 : Fin 2) * 128 ≤ (i 1).val ∧ (i 1).val < win2_6.index t (1 : Fin 2) * 128 + 128; rw [e1]; omega

/-- After the region the result array holds the normalised activations of the arrays the region found. -/
theorem final6 (c : Dev nD) : (dat2 V c).arrAt 6 cfg2.N
    = output (V c main_v61) (V c main_v47_0) (V c main_v27) (V c main_v29) (V c main_v30) (V c main_v31) :=
  (dat2 V c).arrAt_eq_of_cover 6 (output (V c main_v61) (V c main_v47_0) (V c main_v27) (V c main_v29) (V c main_v30) (V c main_v31))
    (fun t _ => flushed2_6_eq V c t) cover2_6

end Cert.KernelIdeal.Normalize

end
-- ==== Proof.RefLayers.lean ====
/-
  The reference program, stage by stage, as the same whole-array functions the kernel's regions compute: the two
  projections are rows times a weight matrix, each combine step is the activation
  max ((agg + h · d) + b) 0 with d the self-loop column and b the bias row as the host lays them out, and the last
  stretch is the layer normalisation of every row.
-/
import proofs.«137613_j7559142441000_2_alg».proof.Proof.Gen.ReferenceIdeal.Read
import proofs.«137613_j7559142441000_2_alg».proof.Proof.Normalize
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.Layers

open Cert.ReferenceIdeal Cert.ReferenceIdeal.Read
open Cert.KernelIdeal.Project Cert.KernelIdeal.Combine Cert.KernelIdeal.Normalize

variable (x0 : (⟨S40000x128, .f32⟩ : BufTy).Contents (Elt Ideal)) (x1 : (⟨S2x640000, .i32⟩ : BufTy).Contents (Elt Ideal))
  (x2 : (⟨S640000, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 x7 x8 : (⟨S128, .f32⟩ : BufTy).Contents (Elt Ideal))

/-- The first projection is rows times the first weight matrix. -/
theorem first_proj : val_main_v4 (F := Ideal) x0 x3 = proj x0 x3 := by
  funext i
  obtain ⟨p, j, rfl⟩ : ∃ (p : Fin 40000) (j : Fin 128), i = ix2 p j := ⟨i 0, i 1, eq_ix2 i⟩
  rw [val_main_v4_apply, proj_apply]
  exact Finset.sum_congr rfl fun k _ => congrArg₂ (· * ·)
    (congrArg x0 (funext fun a => Fin.ext (by match a with | ⟨0, _⟩ => rfl | ⟨1, _⟩ => rfl))) (congrArg x3 (funext fun a => Fin.ext (by match a with | ⟨0, _⟩ => rfl | ⟨1, _⟩ => rfl)))

/-- The first combine step, with the self-loop column and the bias row as the host lays them out. -/
theorem first_act : val_main_v48 (F := Ideal) x0 x1 x2 x3 x4 = act (val_main_v39 (F := Ideal) x0 x1 x2 x3) (val_main_v4 (F := Ideal) x0 x3) (val_main_v41 (F := Ideal) x1 x2) (val_main_v45 (F := Ideal) x4) := by
  funext i
  obtain ⟨p, k, rfl⟩ : ∃ (p : Fin 40000) (k : Fin 128), i = ix2 p k := ⟨i 0, i 1, eq_ix2 i⟩
  rw [act_apply, val_main_v48_apply, val_main_v47_apply, val_main_v44_apply, val_main_v43_apply, val_main_v42_apply,
    val_main_v46_apply, val_main_call0_v0_apply, val_main_call0_cst_apply]
  have e1 : idx_main_v42 (ix2 p k) = ix2 p (0 : Fin 1) := funext fun a => Fin.ext (by match a with | ⟨0, _⟩ => rfl | ⟨1, _⟩ => rfl)
  have e2 : idx_main_v46 (ix2 p k) = ix2 (0 : Fin 1) k := funext fun a => Fin.ext (by match a with | ⟨0, _⟩ => rfl | ⟨1, _⟩ => rfl)
  rw [e1, e2]
  exact congrArg (max _) Ideal.ofBits_zero_f32

/-- The second projection is the activations times the second weight matrix. -/
theorem second_proj : val_main_v49 (F := Ideal) x0 x1 x2 x3 x4 x5 = proj (val_main_v48 (F := Ideal) x0 x1 x2 x3 x4) x5 := by
  funext i
  obtain ⟨p, j, rfl⟩ : ∃ (p : Fin 40000) (j : Fin 128), i = ix2 p j := ⟨i 0, i 1, eq_ix2 i⟩
  rw [val_main_v49_apply, proj_apply]
  exact Finset.sum_congr rfl fun k _ => congrArg₂ (· * ·)
    (congrArg (val_main_v48 (F := Ideal) x0 x1 x2 x3 x4) (funext fun a => Fin.ext (by match a with | ⟨0, _⟩ => rfl | ⟨1, _⟩ => rfl))) (congrArg x5 (funext fun a => Fin.ext (by match a with | ⟨0, _⟩ => rfl | ⟨1, _⟩ => rfl)))

/-- So the second projected array is the first layer's whole-array function. -/
theorem first_layer : val_main_v49 (F := Ideal) x0 x1 x2 x3 x4 x5 = layer (val_main_v39 (F := Ideal) x0 x1 x2 x3) (val_main_v4 (F := Ideal) x0 x3) (val_main_v41 (F := Ideal) x1 x2) (val_main_v45 (F := Ideal) x4) x5 := by
  rw [second_proj, first_act]; rfl

/-- The second combine step. -/
theorem second_act : val_main_v93 (F := Ideal) x0 x1 x2 x3 x4 x5 x6 = act (val_main_v84 (F := Ideal) x0 x1 x2 x3 x4 x5) (val_main_v49 (F := Ideal) x0 x1 x2 x3 x4 x5) (val_main_v86 (F := Ideal) x1 x2) (val_main_v90 (F := Ideal) x6) := by
  funext i
  obtain ⟨p, k, rfl⟩ : ∃ (p : Fin 40000) (k : Fin 128), i = ix2 p k := ⟨i 0, i 1, eq_ix2 i⟩
  rw [act_apply, val_main_v93_apply, val_main_v92_apply, val_main_v89_apply, val_main_v88_apply, val_main_v87_apply,
    val_main_v91_apply, val_main_call1_v0_apply, val_main_call1_cst_apply]
  have e1 : idx_main_v87 (ix2 p k) = ix2 p (0 : Fin 1) := funext fun a => Fin.ext (by match a with | ⟨0, _⟩ => rfl | ⟨1, _⟩ => rfl)
  have e2 : idx_main_v91 (ix2 p k) = ix2 (0 : Fin 1) k := funext fun a => Fin.ext (by match a with | ⟨0, _⟩ => rfl | ⟨1, _⟩ => rfl)
  rw [e1, e2]
  exact congrArg (max _) Ideal.ofBits_zero_f32

/-- A row's mean, as the host computes it (a sum from the zero word, kept as a column, over the width). -/
theorem host_mean (p : Fin 40000) (u : Fin 1) :
    val_main_v97 (F := Ideal) x0 x1 x2 x3 x4 x5 x6 (ix2 p u) = mean (fun k => val_main_v93 (F := Ideal) x0 x1 x2 x3 x4 x5 x6 (ix2 p k)) := by
  rw [val_main_v97_apply, val_main_v95_apply, val_main_v94_apply, val_main_v96_apply, val_main_cst_17_apply, val_main_cst_16_apply]
  show Ideal.div (Ideal.ofBits .f32 0x00000000#32 + ∑ k : Fin 128, val_main_v93 (F := Ideal) x0 x1 x2 x3 x4 x5 x6 (idx_main_v94 (idx_main_v95 (ix2 p u)) k)) width = _
  rw [Ideal.ofBits_zero_f32, zero_add]
  exact congrArg (Ideal.div · width) (Finset.sum_congr rfl fun k _ => congrArg (val_main_v93 (F := Ideal) x0 x1 x2 x3 x4 x5 x6) (funext fun a => Fin.ext (by match a with | ⟨0, _⟩ => rfl | ⟨1, _⟩ => rfl)))

/-- A row's entries with the mean taken off. -/
theorem host_centred (p : Fin 40000) (k : Fin 128) :
    val_main_v99 (F := Ideal) x0 x1 x2 x3 x4 x5 x6 (ix2 p k) = val_main_v93 (F := Ideal) x0 x1 x2 x3 x4 x5 x6 (ix2 p k) - mean (fun k' => val_main_v93 (F := Ideal) x0 x1 x2 x3 x4 x5 x6 (ix2 p k')) := by
  rw [val_main_v99_apply, val_main_v98_apply]
  have e : idx_main_v98 (ix2 p k) = ix2 p (0 : Fin 1) := funext fun a => Fin.ext (by match a with | ⟨0, _⟩ => rfl | ⟨1, _⟩ => rfl)
  rw [e, host_mean]
  rfl

/-- The reciprocal standard deviation of a row, as the host computes it. -/
theorem host_rstd (p : Fin 40000) (u : Fin 1) :
    val_main_v109 (F := Ideal) x0 x1 x2 x3 x4 x5 x6 (ix2 p u) = Ideal.rsqrt (mean (fun k => (val_main_v93 (F := Ideal) x0 x1 x2 x3 x4 x5 x6 (ix2 p k) - mean (fun k' => val_main_v93 (F := Ideal) x0 x1 x2 x3 x4 x5 x6 (ix2 p k')))
      * (val_main_v93 (F := Ideal) x0 x1 x2 x3 x4 x5 x6 (ix2 p k) - mean (fun k' => val_main_v93 (F := Ideal) x0 x1 x2 x3 x4 x5 x6 (ix2 p k')))) + floor) := by
  rw [val_main_v109_apply, val_main_v108_apply, val_main_v104_apply, val_main_v102_apply, val_main_v101_apply, val_main_v103_apply,
    val_main_cst_19_apply, val_main_cst_18_apply, val_main_v107_apply, val_main_cst_20_apply]
  show Ideal.rsqrt (Ideal.div (Ideal.ofBits .f32 0x00000000#32 + ∑ k : Fin 128, val_main_v100 (F := Ideal) x0 x1 x2 x3 x4 x5 x6 (idx_main_v101 (idx_main_v102 (ix2 p u)) k)) width + floor) = _
  rw [Ideal.ofBits_zero_f32, zero_add]
  refine congrArg (fun s => Ideal.rsqrt (Ideal.div s width + floor)) (Finset.sum_congr rfl fun k _ => ?_)
  have e : idx_main_v101 (idx_main_v102 (ix2 p u)) k = ix2 p k := funext fun a => Fin.ext (by match a with | ⟨0, _⟩ => rfl | ⟨1, _⟩ => rfl)
  rw [e, val_main_v100_apply, host_centred]
  rfl

/-- The last stretch is the layer normalisation of every row of the second activations. -/
theorem last_norm : val_main_v117 (F := Ideal) x0 x1 x2 x3 x4 x5 x6 x7 x8 = normed (val_main_v93 (F := Ideal) x0 x1 x2 x3 x4 x5 x6) (val_main_v112 (F := Ideal) x7) (val_main_v115 (F := Ideal) x8) := by
  funext i
  obtain ⟨p, j, rfl⟩ : ∃ (p : Fin 40000) (j : Fin 128), i = ix2 p j := ⟨i 0, i 1, eq_ix2 i⟩
  rw [val_main_v117_apply, val_main_v114_apply, val_main_v111_apply, val_main_v106_apply, val_main_v105_apply, val_main_v110_apply,
    val_main_v113_apply, val_main_v116_apply]
  have e1 : idx_main_v105 (ix2 p j) = ix2 p (0 : Fin 1) := funext fun a => Fin.ext (by match a with | ⟨0, _⟩ => rfl | ⟨1, _⟩ => rfl)
  have e2 : idx_main_v110 (ix2 p j) = ix2 p (0 : Fin 1) := funext fun a => Fin.ext (by match a with | ⟨0, _⟩ => rfl | ⟨1, _⟩ => rfl)
  have e3 : idx_main_v113 (ix2 p j) = ix2 (0 : Fin 1) j := funext fun a => Fin.ext (by match a with | ⟨0, _⟩ => rfl | ⟨1, _⟩ => rfl)
  have e4 : idx_main_v116 (ix2 p j) = ix2 (0 : Fin 1) j := funext fun a => Fin.ext (by match a with | ⟨0, _⟩ => rfl | ⟨1, _⟩ => rfl)
  rw [e1, e2, e3, e4, host_mean, host_rstd]
  rfl

/-- The reference's result is the second layer's whole-array function of its stages. -/
theorem result_eq : val_main_v117 (F := Ideal) x0 x1 x2 x3 x4 x5 x6 x7 x8
    = output (val_main_v84 (F := Ideal) x0 x1 x2 x3 x4 x5) (val_main_v49 (F := Ideal) x0 x1 x2 x3 x4 x5) (val_main_v86 (F := Ideal) x1 x2) (val_main_v90 (F := Ideal) x6) (val_main_v112 (F := Ideal) x7) (val_main_v115 (F := Ideal) x8) := by
  rw [last_norm, second_act]; rfl

end Cert.ReferenceIdeal.Layers

end
-- ==== Proof.Fold.lean ====
/-
  The kernel program's buffers between its regions, read back to the launch memory: what each region finds in its
  input arrays is the reference's stage of the same name, so the last region's result is the reference's result.
-/
import proofs.«137613_j7559142441000_2_alg».proof.Proof.Gen.KernelIdeal.Frame
import proofs.«137613_j7559142441000_2_alg».proof.Proof.Normalize
import proofs.«137613_j7559142441000_2_alg».proof.Proof.RefLayers
import Idealize.ShloMosaic.Lib.StableHlo.Run
import Idealize.ShloMosaic.Lib.ValueLayout
import proofs.«137613_j7559142441000_2_alg».proof.Proof.LibDenseRows

set_option maxRecDepth 16384

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Fold

open Cert.KernelIdeal Cert.KernelIdeal.Gen
open Cert.ReferenceIdeal.Read

variable (m : (ℓ : Loc nD τ sig) → Buf (Elt Ideal) ℓ) (ρ : Dev nD → PrngReg) (c : Dev nD)

/-! ## Before the first region: the host operations on the edge list, the degrees and the bias rows -/

theorem W1_arg0 : W1 m ρ c (Proc.devRef .tc main_arg0) = (m ((c : Thread nD τ).loc main_arg0)) := by
  show StableHlo.after hostOps0 (W0 m ρ c) (Proc.devRef .tc main_arg0) = _
  after_results_simp <;> rfl

theorem W1_arg3 : W1 m ρ c (Proc.devRef .tc main_arg3) = (m ((c : Thread nD τ).loc main_arg3)) := by
  show StableHlo.after hostOps0 (W0 m ρ c) (Proc.devRef .tc main_arg3) = _
  after_results_simp <;> rfl

theorem W1_arg5 : W1 m ρ c (Proc.devRef .tc main_arg5) = (m ((c : Thread nD τ).loc main_arg5)) := by
  show StableHlo.after hostOps0 (W0 m ρ c) (Proc.devRef .tc main_arg5) = _
  after_results_simp <;> rfl

/-- The source nodes of the edges. -/
theorem W1_v1 : W1 m ρ c (Proc.devRef .tc main_v1) = (val_main_v1 (F := Ideal) (m ((c : Thread nD τ).loc main_arg1))) := by
  show StableHlo.after hostOps0 (W0 m ρ c) (Proc.devRef .tc main_v1) = _
  after_results_simp <;> rfl

/-- The target nodes of the edges. -/
theorem W1_v3 : W1 m ρ c (Proc.devRef .tc main_v3) = (val_main_v3 (F := Ideal) (m ((c : Thread nD τ).loc main_arg1))) := by
  show StableHlo.after hostOps0 (W0 m ρ c) (Proc.devRef .tc main_v3) = _
  after_results_simp <;> rfl

/-- The edges' symmetric normalisation coefficients. -/
theorem W1_v25 : W1 m ρ c (Proc.devRef .tc main_v25) = (val_main_v26 (F := Ideal) (m ((c : Thread nD τ).loc main_arg1)) (m ((c : Thread nD τ).loc main_arg2))) := by
  show StableHlo.after hostOps0 (W0 m ρ c) (Proc.devRef .tc main_v25) = _
  after_results_simp <;> rfl

/-- The self-loop coefficients, recast as a column: the squares of the degrees' reciprocal roots. -/
theorem W1_v27 : W1 m ρ c (Proc.devRef .tc main_v27) = shapeCast S40000x1 (val_main_v40 (F := Ideal) (m ((c : Thread nD τ).loc main_arg1)) (m ((c : Thread nD τ).loc main_arg2))) shapeCasts_S40000_S40000x1 := by
  show StableHlo.after hostOps0 (W0 m ρ c) (Proc.devRef .tc main_v27) = _
  after_results_simp <;> rfl

/-- The same column, over the reference's second computation of the same degrees. -/
theorem W1_v27' : W1 m ρ c (Proc.devRef .tc main_v27) = shapeCast S40000x1 (val_main_v85 (F := Ideal) (m ((c : Thread nD τ).loc main_arg1)) (m ((c : Thread nD τ).loc main_arg2))) shapeCasts_S40000_S40000x1 := by
  show StableHlo.after hostOps0 (W0 m ρ c) (Proc.devRef .tc main_v27) = _
  after_results_simp <;> rfl

theorem W1_v28 : W1 m ρ c (Proc.devRef .tc main_v28) = shapeCast S1x128 (m ((c : Thread nD τ).loc main_arg4)) shapeCasts_S128_S1x128 := by
  show StableHlo.after hostOps0 (W0 m ρ c) (Proc.devRef .tc main_v28) = _
  after_results_simp <;> rfl

theorem W1_v29 : W1 m ρ c (Proc.devRef .tc main_v29) = shapeCast S1x128 (m ((c : Thread nD τ).loc main_arg6)) shapeCasts_S128_S1x128 := by
  show StableHlo.after hostOps0 (W0 m ρ c) (Proc.devRef .tc main_v29) = _
  after_results_simp <;> rfl

theorem W1_v30 : W1 m ρ c (Proc.devRef .tc main_v30) = shapeCast S1x128 (m ((c : Thread nD τ).loc main_arg7)) shapeCasts_S128_S1x128 := by
  show StableHlo.after hostOps0 (W0 m ρ c) (Proc.devRef .tc main_v30) = _
  after_results_simp <;> rfl

theorem W1_v31 : W1 m ρ c (Proc.devRef .tc main_v31) = shapeCast S1x128 (m ((c : Thread nD τ).loc main_arg8)) shapeCasts_S128_S1x128 := by
  show StableHlo.after hostOps0 (W0 m ρ c) (Proc.devRef .tc main_v31) = _
  after_results_simp <;> rfl

/-- A vector recast as a column is the host's broadcast of it along a new unit axis. -/
theorem col_eq (d : (⟨S40000, .f32⟩ : BufTy).Contents (Elt Ideal)) (e : (⟨S40000x1, .f32⟩ : BufTy).Contents (Elt Ideal))
    (he : ∀ (p : Fin 40000) (u : Fin 1), e (ix2 p u) = d (ix1 p)) :
    shapeCast S40000x1 d shapeCasts_S40000_S40000x1 = e := by
  funext i
  obtain ⟨p, u, rfl⟩ : ∃ (p : Fin 40000) (u : Fin 1), i = ix2 p u := ⟨i 0, i 1, eq_ix2 i⟩
  exact (Cert.DenseRows.shapeCast_a_a1_apply d _ p u).trans (he p u).symm

/-- A vector recast as a row is the host's broadcast of it along a new unit axis. -/
theorem row_eq (b : (⟨S128, .f32⟩ : BufTy).Contents (Elt Ideal)) (e : (⟨S1x128, .f32⟩ : BufTy).Contents (Elt Ideal))
    (he : ∀ (u : Fin 1) (j : Fin 128), e (ix2 u j) = b (ix1 j)) :
    shapeCast S1x128 b shapeCasts_S128_S1x128 = e := by
  funext i
  obtain ⟨u, j, rfl⟩ : ∃ (u : Fin 1) (j : Fin 128), i = ix2 u j := ⟨i 0, i 1, eq_ix2 i⟩
  exact (shapeCast_a_1a_apply b _ u j).trans (he u j).symm

theorem col1 : shapeCast S40000x1 (val_main_v40 (F := Ideal) (m ((c : Thread nD τ).loc main_arg1)) (m ((c : Thread nD τ).loc main_arg2))) shapeCasts_S40000_S40000x1 = (val_main_v41 (F := Ideal) (m ((c : Thread nD τ).loc main_arg1)) (m ((c : Thread nD τ).loc main_arg2))) :=
  col_eq _ _ fun p u => (val_main_v41_apply _ _ _).trans (congrArg (val_main_v40 (F := Ideal) (m ((c : Thread nD τ).loc main_arg1)) (m ((c : Thread nD τ).loc main_arg2))) (funext fun a => Fin.ext (by match a with | ⟨0, _⟩ => rfl)))

theorem col2 : shapeCast S40000x1 (val_main_v85 (F := Ideal) (m ((c : Thread nD τ).loc main_arg1)) (m ((c : Thread nD τ).loc main_arg2))) shapeCasts_S40000_S40000x1 = (val_main_v86 (F := Ideal) (m ((c : Thread nD τ).loc main_arg1)) (m ((c : Thread nD τ).loc main_arg2))) :=
  col_eq _ _ fun p u => (val_main_v86_apply _ _ _).trans (congrArg (val_main_v85 (F := Ideal) (m ((c : Thread nD τ).loc main_arg1)) (m ((c : Thread nD τ).loc main_arg2))) (funext fun a => Fin.ext (by match a with | ⟨0, _⟩ => rfl)))

theorem row1 : shapeCast S1x128 (m ((c : Thread nD τ).loc main_arg4)) shapeCasts_S128_S1x128 = (val_main_v45 (F := Ideal) (m ((c : Thread nD τ).loc main_arg4))) :=
  row_eq _ _ fun u j => (val_main_v45_apply _ _).trans (congrArg (m ((c : Thread nD τ).loc main_arg4)) (funext fun a => Fin.ext (by match a with | ⟨0, _⟩ => rfl)))

theorem row2 : shapeCast S1x128 (m ((c : Thread nD τ).loc main_arg6)) shapeCasts_S128_S1x128 = (val_main_v90 (F := Ideal) (m ((c : Thread nD τ).loc main_arg6))) :=
  row_eq _ _ fun u j => (val_main_v90_apply _ _).trans (congrArg (m ((c : Thread nD τ).loc main_arg6)) (funext fun a => Fin.ext (by match a with | ⟨0, _⟩ => rfl)))

theorem row3 : shapeCast S1x128 (m ((c : Thread nD τ).loc main_arg7)) shapeCasts_S128_S1x128 = (val_main_v112 (F := Ideal) (m ((c : Thread nD τ).loc main_arg7))) :=
  row_eq _ _ fun u j => (val_main_v112_apply _ _).trans (congrArg (m ((c : Thread nD τ).loc main_arg7)) (funext fun a => Fin.ext (by match a with | ⟨0, _⟩ => rfl)))

theorem row4 : shapeCast S1x128 (m ((c : Thread nD τ).loc main_arg8)) shapeCasts_S128_S1x128 = (val_main_v115 (F := Ideal) (m ((c : Thread nD τ).loc main_arg8))) :=
  row_eq _ _ fun u j => (val_main_v115_apply _ _).trans (congrArg (m ((c : Thread nD τ).loc main_arg8)) (funext fun a => Fin.ext (by match a with | ⟨0, _⟩ => rfl)))

/-! ## After the first region -/

theorem W2_v1 : W2 m ρ c (Proc.devRef .tc main_v1) = W1 m ρ c (Proc.devRef .tc main_v1) :=
  W2_of_ne m ρ c main_v1 (by decide)
theorem W2_v3 : W2 m ρ c (Proc.devRef .tc main_v3) = W1 m ρ c (Proc.devRef .tc main_v3) :=
  W2_of_ne m ρ c main_v3 (by decide)
theorem W2_v25 : W2 m ρ c (Proc.devRef .tc main_v25) = W1 m ρ c (Proc.devRef .tc main_v25) :=
  W2_of_ne m ρ c main_v25 (by decide)
theorem W2_v27 : W2 m ρ c (Proc.devRef .tc main_v27) = W1 m ρ c (Proc.devRef .tc main_v27) :=
  W2_of_ne m ρ c main_v27 (by decide)
theorem W2_v28 : W2 m ρ c (Proc.devRef .tc main_v28) = W1 m ρ c (Proc.devRef .tc main_v28) :=
  W2_of_ne m ρ c main_v28 (by decide)
theorem W2_v29 : W2 m ρ c (Proc.devRef .tc main_v29) = W1 m ρ c (Proc.devRef .tc main_v29) :=
  W2_of_ne m ρ c main_v29 (by decide)
theorem W2_v30 : W2 m ρ c (Proc.devRef .tc main_v30) = W1 m ρ c (Proc.devRef .tc main_v30) :=
  W2_of_ne m ρ c main_v30 (by decide)
theorem W2_v31 : W2 m ρ c (Proc.devRef .tc main_v31) = W1 m ρ c (Proc.devRef .tc main_v31) :=
  W2_of_ne m ρ c main_v31 (by decide)

theorem W2_arg5 : W2 m ρ c (Proc.devRef .tc main_arg5) = W1 m ρ c (Proc.devRef .tc main_arg5) :=
  W2_of_ne m ρ c main_arg5 (by decide)

/-- The first region leaves the first projection in its f32 output. -/
theorem W2_h : W2 m ρ c (Proc.devRef .tc main_v32_0) = (val_main_v4 (F := Ideal) (m ((c : Thread nD τ).loc main_arg0)) (m ((c : Thread nD τ).loc main_arg3))) := by
  refine (W2_arr m ρ c 2).trans ((Cert.KernelIdeal.Project.final2 (V1 m ρ) c).trans ?_)
  rw [Cert.ReferenceIdeal.Layers.first_proj]
  show Cert.KernelIdeal.Project.proj (W1 m ρ c (Proc.devRef .tc main_arg0)) (W1 m ρ c (Proc.devRef .tc main_arg3)) = _
  rw [W1_arg0, W1_arg3]

/-- And in its bf16 output. -/
theorem W2_hb : W2 m ρ c (Proc.devRef .tc main_v32_1) = (val_main_v4 (F := Ideal) (m ((c : Thread nD τ).loc main_arg0)) (m ((c : Thread nD τ).loc main_arg3))) := by
  refine (W2_arr m ρ c 3).trans ((Cert.KernelIdeal.Project.final3 (V1 m ρ) c).trans ?_)
  rw [Cert.ReferenceIdeal.Layers.first_proj]
  show Cert.KernelIdeal.Project.proj (W1 m ρ c (Proc.devRef .tc main_arg0)) (W1 m ρ c (Proc.devRef .tc main_arg3)) = _
  rw [W1_arg0, W1_arg3]

/-! ## Before the second region: the first aggregation over the edges -/

/-- The neighbours' weighted sums of the first projection (gathered from the bf16 copy: the same numbers). -/
theorem W3_v46 : W3 m ρ c (Proc.devRef .tc main_v46) = (val_main_v39 (F := Ideal) (m ((c : Thread nD τ).loc main_arg0)) (m ((c : Thread nD τ).loc main_arg1)) (m ((c : Thread nD τ).loc main_arg2)) (m ((c : Thread nD τ).loc main_arg3))) := by
  show StableHlo.after hostOps1 (W2 m ρ c) (Proc.devRef .tc main_v46) = _
  after_results_simp
  rw [W2_v1, W2_v3, W2_v25, W2_hb, W1_v1, W1_v3, W1_v25]
  rfl

theorem W3_h : W3 m ρ c (Proc.devRef .tc main_v32_0) = (val_main_v4 (F := Ideal) (m ((c : Thread nD τ).loc main_arg0)) (m ((c : Thread nD τ).loc main_arg3))) := by
  show StableHlo.after hostOps1 (W2 m ρ c) (Proc.devRef .tc main_v32_0) = _
  after_results_simp
  exact W2_h m ρ c

theorem W3_v27 : W3 m ρ c (Proc.devRef .tc main_v27) = (val_main_v41 (F := Ideal) (m ((c : Thread nD τ).loc main_arg1)) (m ((c : Thread nD τ).loc main_arg2))) := by
  show StableHlo.after hostOps1 (W2 m ρ c) (Proc.devRef .tc main_v27) = _
  after_results_simp
  rw [W2_v27, W1_v27]
  exact col1 m c

theorem W3_v28 : W3 m ρ c (Proc.devRef .tc main_v28) = (val_main_v45 (F := Ideal) (m ((c : Thread nD τ).loc main_arg4))) := by
  show StableHlo.after hostOps1 (W2 m ρ c) (Proc.devRef .tc main_v28) = _
  after_results_simp
  rw [W2_v28, W1_v28]
  exact row1 m c

theorem W3_arg5 : W3 m ρ c (Proc.devRef .tc main_arg5) = (m ((c : Thread nD τ).loc main_arg5)) := by
  show StableHlo.after hostOps1 (W2 m ρ c) (Proc.devRef .tc main_arg5) = _
  after_results_simp
  rw [W2_arg5, W1_arg5]

/-- For the third region: the column and the rows it reads, and the edge list again. -/
theorem W3_v27' : W3 m ρ c (Proc.devRef .tc main_v27) = (val_main_v86 (F := Ideal) (m ((c : Thread nD τ).loc main_arg1)) (m ((c : Thread nD τ).loc main_arg2))) := by
  show StableHlo.after hostOps1 (W2 m ρ c) (Proc.devRef .tc main_v27) = _
  after_results_simp
  rw [W2_v27, W1_v27']
  exact col2 m c

theorem W3_v29 : W3 m ρ c (Proc.devRef .tc main_v29) = (val_main_v90 (F := Ideal) (m ((c : Thread nD τ).loc main_arg6))) := by
  show StableHlo.after hostOps1 (W2 m ρ c) (Proc.devRef .tc main_v29) = _
  after_results_simp
  rw [W2_v29, W1_v29]
  exact row2 m c

theorem W3_v30 : W3 m ρ c (Proc.devRef .tc main_v30) = (val_main_v112 (F := Ideal) (m ((c : Thread nD τ).loc main_arg7))) := by
  show StableHlo.after hostOps1 (W2 m ρ c) (Proc.devRef .tc main_v30) = _
  after_results_simp
  rw [W2_v30, W1_v30]
  exact row3 m c

theorem W3_v31 : W3 m ρ c (Proc.devRef .tc main_v31) = (val_main_v115 (F := Ideal) (m ((c : Thread nD τ).loc main_arg8))) := by
  show StableHlo.after hostOps1 (W2 m ρ c) (Proc.devRef .tc main_v31) = _
  after_results_simp
  rw [W2_v31, W1_v31]
  exact row4 m c

theorem W3_v1 : W3 m ρ c (Proc.devRef .tc main_v1) = (val_main_v1 (F := Ideal) (m ((c : Thread nD τ).loc main_arg1))) := by
  show StableHlo.after hostOps1 (W2 m ρ c) (Proc.devRef .tc main_v1) = _
  after_results_simp
  rw [W2_v1, W1_v1]

theorem W3_v3 : W3 m ρ c (Proc.devRef .tc main_v3) = (val_main_v3 (F := Ideal) (m ((c : Thread nD τ).loc main_arg1))) := by
  show StableHlo.after hostOps1 (W2 m ρ c) (Proc.devRef .tc main_v3) = _
  after_results_simp
  rw [W2_v3, W1_v3]

theorem W3_v25 : W3 m ρ c (Proc.devRef .tc main_v25) = (val_main_v26 (F := Ideal) (m ((c : Thread nD τ).loc main_arg1)) (m ((c : Thread nD τ).loc main_arg2))) := by
  show StableHlo.after hostOps1 (W2 m ρ c) (Proc.devRef .tc main_v25) = _
  after_results_simp
  rw [W2_v25, W1_v25]

/-! ## After the second region -/

theorem W4_v1 : W4 m ρ c (Proc.devRef .tc main_v1) = W3 m ρ c (Proc.devRef .tc main_v1) :=
  W4_of_ne m ρ c main_v1 (by decide)
theorem W4_v3 : W4 m ρ c (Proc.devRef .tc main_v3) = W3 m ρ c (Proc.devRef .tc main_v3) :=
  W4_of_ne m ρ c main_v3 (by decide)
theorem W4_v25 : W4 m ρ c (Proc.devRef .tc main_v25) = W3 m ρ c (Proc.devRef .tc main_v25) :=
  W4_of_ne m ρ c main_v25 (by decide)
/-- The column is one of the second region's input arrays: the region leaves it as it found it. -/
theorem W4_v27 : W4 m ρ c (Proc.devRef .tc main_v27) = W3 m ρ c (Proc.devRef .tc main_v27) :=
  (W4_arr m ρ c 2).trans (((dat1 (V3 m ρ) c).arrAt_in 2 rfl _).trans (A_eq1 (V3 m ρ) c 2))
theorem W4_v29 : W4 m ρ c (Proc.devRef .tc main_v29) = W3 m ρ c (Proc.devRef .tc main_v29) :=
  W4_of_ne m ρ c main_v29 (by decide)
theorem W4_v30 : W4 m ρ c (Proc.devRef .tc main_v30) = W3 m ρ c (Proc.devRef .tc main_v30) :=
  W4_of_ne m ρ c main_v30 (by decide)
theorem W4_v31 : W4 m ρ c (Proc.devRef .tc main_v31) = W3 m ρ c (Proc.devRef .tc main_v31) :=
  W4_of_ne m ρ c main_v31 (by decide)

/-- The second region leaves the second projection in its f32 output. -/
theorem W4_h : W4 m ρ c (Proc.devRef .tc main_v47_0) = (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W4_arr m ρ c 5).trans ((Cert.KernelIdeal.Combine.final5 (V3 m ρ) c).trans ?_)
  rw [Cert.ReferenceIdeal.Layers.first_layer]
  show Cert.KernelIdeal.Combine.layer (W3 m ρ c (Proc.devRef .tc main_v46)) (W3 m ρ c (Proc.devRef .tc main_v32_0))
    (W3 m ρ c (Proc.devRef .tc main_v27)) (W3 m ρ c (Proc.devRef .tc main_v28)) (W3 m ρ c (Proc.devRef .tc main_arg5)) = _
  rw [W3_v46, W3_h, W3_v27, W3_v28, W3_arg5]

/-- And in its bf16 output. -/
theorem W4_hb : W4 m ρ c (Proc.devRef .tc main_v47_1) = (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W4_arr m ρ c 6).trans ((Cert.KernelIdeal.Combine.final6 (V3 m ρ) c).trans ?_)
  rw [Cert.ReferenceIdeal.Layers.first_layer]
  show Cert.KernelIdeal.Combine.layer (W3 m ρ c (Proc.devRef .tc main_v46)) (W3 m ρ c (Proc.devRef .tc main_v32_0))
    (W3 m ρ c (Proc.devRef .tc main_v27)) (W3 m ρ c (Proc.devRef .tc main_v28)) (W3 m ρ c (Proc.devRef .tc main_arg5)) = _
  rw [W3_v46, W3_h, W3_v27, W3_v28, W3_arg5]

/-! ## Before the third region: the second aggregation -/

/-- The neighbours' weighted sums of the second projection. -/
theorem W5_v61 : W5 m ρ c (Proc.devRef .tc main_v61) = (val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show StableHlo.after hostOps2 (W4 m ρ c) (Proc.devRef .tc main_v61) = _
  after_results_simp
  rw [W4_v1, W4_v3, W4_v25, W4_hb, W3_v1, W3_v3, W3_v25]
  rfl

theorem W5_h : W5 m ρ c (Proc.devRef .tc main_v47_0) = (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show StableHlo.after hostOps2 (W4 m ρ c) (Proc.devRef .tc main_v47_0) = _
  after_results_simp
  exact W4_h m ρ c

theorem W5_v27 : W5 m ρ c (Proc.devRef .tc main_v27) = (val_main_v86 (F := Ideal) (m ((c : Thread nD τ).loc main_arg1)) (m ((c : Thread nD τ).loc main_arg2))) := by
  show StableHlo.after hostOps2 (W4 m ρ c) (Proc.devRef .tc main_v27) = _
  after_results_simp
  rw [W4_v27, W3_v27']

theorem W5_v29 : W5 m ρ c (Proc.devRef .tc main_v29) = (val_main_v90 (F := Ideal) (m ((c : Thread nD τ).loc main_arg6))) := by
  show StableHlo.after hostOps2 (W4 m ρ c) (Proc.devRef .tc main_v29) = _
  after_results_simp
  rw [W4_v29, W3_v29]

theorem W5_v30 : W5 m ρ c (Proc.devRef .tc main_v30) = (val_main_v112 (F := Ideal) (m ((c : Thread nD τ).loc main_arg7))) := by
  show StableHlo.after hostOps2 (W4 m ρ c) (Proc.devRef .tc main_v30) = _
  after_results_simp
  rw [W4_v30, W3_v30]

theorem W5_v31 : W5 m ρ c (Proc.devRef .tc main_v31) = (val_main_v115 (F := Ideal) (m ((c : Thread nD τ).loc main_arg8))) := by
  show StableHlo.after hostOps2 (W4 m ρ c) (Proc.devRef .tc main_v31) = _
  after_results_simp
  rw [W4_v31, W3_v31]

/-! ## The result -/

/-- The third region leaves the reference's result in the result array. -/
theorem result : W6 m ρ c (Proc.devRef .tc main_v62) = (val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W6_arr m ρ c 6).trans ((Cert.KernelIdeal.Normalize.final6 (V5 m ρ) c).trans ?_)
  rw [Cert.ReferenceIdeal.Layers.result_eq]
  show Cert.KernelIdeal.Normalize.output (W5 m ρ c (Proc.devRef .tc main_v61)) (W5 m ρ c (Proc.devRef .tc main_v47_0))
    (W5 m ρ c (Proc.devRef .tc main_v27)) (W5 m ρ c (Proc.devRef .tc main_v29)) (W5 m ρ c (Proc.devRef .tc main_v30))
    (W5 m ρ c (Proc.devRef .tc main_v31)) = _
  rw [W5_v61, W5_h, W5_v27, W5_v29, W5_v30, W5_v31]

end Cert.KernelIdeal.Fold

end
-- ==== Proof.lean ====
/-
  A two-layer graph convolution followed by a layer normalisation, as three kernel regions among host operations,
  against the same network written as one host program.

  At the exact instance both programs compute, for the node features x, weights W₁, W₂, biases b₁, b₂, the edge list
  with its weights, and the scale and shift γ, β:
    h₁ = x · W₁,            a₁ = max ((agg h₁ + h₁ · d) + b₁) 0,
    h₂ = a₁ · W₂,           a₂ = max ((agg h₂ + h₂ · d) + b₂) 0,
    out (p, j) = ((a₂ (p, j) − μ p) · rsqrt (v p + ε)) · γ j + β j,
  where agg is the edges' gather, scaling and scatter-add (the same host operations in both programs), d the squared
  reciprocal roots of the degrees, μ p and v p the mean and variance of row p of a₂. The kernel tiles the node axis by
  5000 rows; a tile of a product of rows by a matrix, and of a row-wise normalisation, is the same tile of the whole
  array's, and a sum may be taken in any order on the extended reals, so the two results agree entry by entry. No
  law used needs the inputs finite.

  The frames of the two kernel programs are the generated ones; the reference's frame is its generated run with the
  result dropped; the idealization rewrote nothing.
-/
import proofs.«137613_j7559142441000_2_alg».proof.Defs
import proofs.«137613_j7559142441000_2_alg».proof.Proof.Gen.Kernel
import proofs.«137613_j7559142441000_2_alg».proof.Proof.Gen.Kernel.Skeleton
import proofs.«137613_j7559142441000_2_alg».proof.Proof.Gen.Kernel.Launch
import proofs.«137613_j7559142441000_2_alg».proof.Proof.Gen.Kernel.Points
import proofs.«137613_j7559142441000_2_alg».proof.Proof.Gen.Kernel.Frame
import proofs.«137613_j7559142441000_2_alg».proof.Proof.Gen.KernelIdeal
import proofs.«137613_j7559142441000_2_alg».proof.Proof.Gen.KernelIdeal.Skeleton
import proofs.«137613_j7559142441000_2_alg».proof.Proof.Gen.KernelIdeal.Launch
import proofs.«137613_j7559142441000_2_alg».proof.Proof.Gen.KernelIdeal.Points
import proofs.«137613_j7559142441000_2_alg».proof.Proof.Gen.KernelIdeal.Frame
import proofs.«137613_j7559142441000_2_alg».proof.Proof.Gen.ReferenceIdeal
import proofs.«137613_j7559142441000_2_alg».proof.Proof.Gen.ReferenceIdeal.Run
import proofs.«137613_j7559142441000_2_alg».proof.Proof.Gen.ReferenceIdeal.Read
import proofs.«137613_j7559142441000_2_alg».proof.Proof.Gen.Pre_finite_inputs
import proofs.«137613_j7559142441000_2_alg».proof.Proof.KRun
import proofs.«137613_j7559142441000_2_alg».proof.Proof.Fold
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end, the kernel's result array holding what its last
    region leaves and the reference's its last stage: one function of the arguments. -/
theorem algebraic : Cert.algebraic_KernelIdeal_ReferenceIdeal := by
  intro m ρ m' ρ' _ hagree
  refine ⟨fun c => Cert.KernelIdeal.Gen.W6 m ρ c (Proc.devRef .tc Cert.KernelIdeal.main_v62),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v117_eq, a0, a1, a2, a3, a4, a5, a6, a7, a8]
  exact (Cert.KernelIdeal.Fold.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
